-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2816 : Shape := ⟨2, ![2048, 2816]⟩
abbrev S2048x8 : Shape := ⟨2, ![2048, 8]⟩
abbrev S32x704x2816 : Shape := ⟨3, ![32, 704, 2816]⟩
abbrev S32x2816x704 : Shape := ⟨3, ![32, 2816, 704]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_
  bcast_S_S32x704x2816 : S_.BroadcastsInDim S32x704x2816 (![] : Fin 0 → Fin S32x704x2816.rank)
  reducesTo_S32x704x2816_S_d0_1_2 : S32x704x2816.ReducesTo [0, 1, 2] S_
  bcast_S_S32x2816x704 : S_.BroadcastsInDim S32x2816x704 (![] : Fin 0 → Fin S32x2816x704.rank)
  reducesTo_S32x2816x704_S_d0_1_2 : S32x2816x704.ReducesTo [0, 1, 2] S_

variable [Facts]

def fn_part1 {F : FTy → Type} [FloatOps F] (main_arg5 : FVec F S32x2816x704 .f32) (main_v13 : IVec S_ 1) (main_v16 : IVec S32x704x2816 1) : IVec S_ 1 :=
  let main_c_5 : IVec S_ 1 := constantI S_ 1 1#1
  let main_v17 : IVec S_ 1 := (fun x v => Host.reduce IntOp.andi x v reducesTo_S32x704x2816_S_d0_1_2 h_S_) main_v16 main_c_5
  let main_v18 : IVec S_ 1 := andi main_v13 main_v17
  let main_v19 : FVec F S32x2816x704 .f32 := Host.absf main_arg5
  let main_cst_6 : FVec F S_ .f32 := constant S_ .f32 0x7F800000#32
  let main_v20 : FVec F S32x2816x704 .f32 := broadcastInDim S32x2816x704 ![] bcast_S_S32x2816x704 main_cst_6
  let main_v21 : IVec S32x2816x704 1 := cmpf .olt main_v19 main_v20
  let main_c_7 : IVec S_ 1 := constantI S_ 1 1#1
  let main_v22 : IVec S_ 1 := (fun x v => Host.reduce IntOp.andi x v reducesTo_S32x2816x704_S_d0_1_2 h_S_) main_v21 main_c_7
  let main_v23 : IVec S_ 1 := andi main_v18 main_v22
  main_v23

def fn {F : FTy → Type} [FloatOps F] (main_arg0 : FVec F S2048x2816 .f32) (main_arg1 : IVec S2048x8 32) (main_arg2 : FVec F S2048x8 .f32) (main_arg3 : FVec F S32x704x2816 .f32) (main_arg4 : FVec F S32x704x2816 .f32) (main_arg5 : FVec F S32x2816x704 .f32) : IVec S_ 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S2048x8 .f32 := Host.absf main_arg2
  let main_cst_0 : FVec F S_ .f32 := constant S_ .f32 0x7F800000#32
  let main_v5 : FVec F S2048x8 .f32 := broadcastInDim S2048x8 ![] bcast_S_S2048x8 main_cst_0
  let main_v6 : IVec S2048x8 1 := cmpf .olt main_v4 main_v5
  let main_c_1 : IVec S_ 1 := constantI S_ 1 1#1
  let main_v7 : IVec S_ 1 := (fun x v => Host.reduce IntOp.andi x v reducesTo_S2048x8_S_d0_1 h_S_) main_v6 main_c_1
  let main_v8 : IVec S_ 1 := andi main_v3 main_v7
  let main_v9 : FVec F S32x704x2816 .f32 := Host.absf main_arg3
  let main_cst_2 : FVec F S_ .f32 := constant S_ .f32 0x7F800000#32
  let main_v10 : FVec F S32x704x2816 .f32 := broadcastInDim S32x704x2816 ![] bcast_S_S32x704x2816 main_cst_2
  let main_v11 : IVec S32x704x2816 1 := cmpf .olt main_v9 main_v10
  let main_c_3 : IVec S_ 1 := constantI S_ 1 1#1
  let main_v12 : IVec S_ 1 := (fun x v => Host.reduce IntOp.andi x v reducesTo_S32x704x2816_S_d0_1_2 h_S_) main_v11 main_c_3
  let main_v13 : IVec S_ 1 := andi main_v8 main_v12
  let main_v14 : FVec F S32x704x2816 .f32 := Host.absf main_arg4
  let main_cst_4 : FVec F S_ .f32 := constant S_ .f32 0x7F800000#32
  let main_v15 : FVec F S32x704x2816 .f32 := broadcastInDim S32x704x2816 ![] bcast_S_S32x704x2816 main_cst_4
  let main_v16 : IVec S32x704x2816 1 := cmpf .olt main_v14 main_v15
  fn_part1 (F := F) main_arg5 main_v13 main_v16
-- ==== Kernel.lean ====
abbrev S2048x2816 : Shape := ⟨2, ![2048, 2816]⟩
abbrev S2048x8 : Shape := ⟨2, ![2048, 8]⟩
abbrev S32x704x2816 : Shape := ⟨3, ![32, 704, 2816]⟩
abbrev S32x2816x704 : Shape := ⟨3, ![32, 2816, 704]⟩
abbrev S16384 : Shape := ⟨1, ![16384]⟩
abbrev S16384x1 : Shape := ⟨2, ![16384, 1]⟩
abbrev S32 : Shape := ⟨1, ![32]⟩
abbrev S1x32 : Shape := ⟨2, ![1, 32]⟩
abbrev S16384x32 : Shape := ⟨2, ![16384, 32]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S2048x1x2816 : Shape := ⟨3, ![2048, 1, 2816]⟩
abbrev S2048x8x2816 : Shape := ⟨3, ![2048, 8, 2816]⟩
abbrev S16384x2816 : Shape := ⟨2, ![16384, 2816]⟩
abbrev S32x640x2816 : Shape := ⟨3, ![32, 640, 2816]⟩
abbrev S16384x2 : Shape := ⟨2, ![16384, 2]⟩
abbrev S1x320x2816 : Shape := ⟨3, ![1, 320, 2816]⟩
abbrev S1x704x2816 : Shape := ⟨3, ![1, 704, 2816]⟩
abbrev S1x2816x704 : Shape := ⟨3, ![1, 2816, 704]⟩
abbrev S320x2816 : Shape := ⟨2, ![320, 2816]⟩
abbrev S704x2816 : Shape := ⟨2, ![704, 2816]⟩
abbrev S2816x704 : Shape := ⟨2, ![2816, 704]⟩
abbrev S320x704 : Shape := ⟨2, ![320, 704]⟩
abbrev S2048x8x1 : Shape := ⟨3, ![2048, 8, 1]⟩

abbrev nBuf : Space → Nat
  | .hbm => 110
  | .vmem => 10
  | .smem => 0
  | _ => 0

abbrev bufTy : (tb : Table) → Fin (tcTables nBuf tb) → BufTy
  | .hbm, ⟨0, _⟩ => ⟨S2048x2816, .f32⟩
  | .hbm, ⟨1, _⟩ => ⟨S2048x8, .i32⟩
  | .hbm, ⟨2, _⟩ => ⟨S2048x8, .f32⟩
  | .hbm, ⟨3, _⟩ => ⟨S32x704x2816, .f32⟩
  | .hbm, ⟨4, _⟩ => ⟨S32x704x2816, .f32⟩
  | .hbm, ⟨5, _⟩ => ⟨S32x2816x704, .f32⟩
  | .hbm, ⟨6, _⟩ => ⟨S16384, .i32⟩
  | .hbm, ⟨7, _⟩ => ⟨S16384x1, .i32⟩
  | .hbm, ⟨8, _⟩ => ⟨S32, .i32⟩
  | .hbm, ⟨9, _⟩ => ⟨S1x32, .i32⟩
  | .hbm, ⟨10, _⟩ => ⟨S16384x32, .i32⟩
  | .hbm, ⟨11, _⟩ => ⟨S16384x32, .i32⟩
  | .hbm, ⟨12, _⟩ => ⟨S16384x32, .i1⟩
  | .hbm, ⟨13, _⟩ => ⟨S16384x32, .i32⟩
  | .hbm, ⟨14, _⟩ => ⟨S_, .i32⟩
  | .hbm, ⟨15, _⟩ => ⟨S_, .i32⟩
  | .hbm, ⟨16, _⟩ => ⟨S16384x32, .i32⟩
  | .hbm, ⟨17, _⟩ => ⟨S16384x32, .i32⟩
  | .hbm, ⟨18, _⟩ => ⟨S16384x1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S_, .i32⟩
  | .hbm, ⟨23, _⟩ => ⟨S16384x1, .i32⟩
  | .hbm, ⟨24, _⟩ => ⟨S16384x1, .i32⟩
  | .hbm, ⟨25, _⟩ => ⟨S16384x1, .i32⟩
  | .hbm, ⟨26, _⟩ => ⟨S16384x1x1, .i32⟩
  | .hbm, ⟨27, _⟩ => ⟨S1, .i32⟩
  | .hbm, ⟨28, _⟩ => ⟨S_, .i32⟩
  | .hbm, ⟨29, _⟩ => ⟨S16384x1x1, .i32⟩
  | .hbm, ⟨30, _⟩ => ⟨S16384x1x1, .i1⟩
  | .hbm, ⟨31, _⟩ => ⟨S1x1x1, .i32⟩
  | .hbm, ⟨32, _⟩ => ⟨S16384x1x1, .i32⟩
  | .hbm, ⟨33, _⟩ => ⟨S16384x1x1, .i1⟩
  | .hbm, ⟨34, _⟩ => ⟨S16384x1x1, .i1⟩
  | .hbm, ⟨35, _⟩ => ⟨S_, .i1⟩
  | .hbm, ⟨36, _⟩ => ⟨S16384x1, .i1⟩
  | .hbm, ⟨37, _⟩ => ⟨S16384x1, .i32⟩
  | .hbm, ⟨38, _⟩ => ⟨S_, .i32⟩
  | .hbm, ⟨39, _⟩ => ⟨S16384x1, .i32⟩
  | .hbm, ⟨40, _⟩ => ⟨S16384x1, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S2048x1x2816, .f32⟩
  | .hbm, ⟨49, _⟩ => ⟨S2048x8x2816, .f32⟩
  | .hbm, ⟨50, _⟩ => ⟨S16384x2816, .f32⟩
  | .hbm, ⟨51, _⟩ => ⟨S16384x1, .i1⟩
  | .hbm, ⟨52, _⟩ => ⟨S_, .f32⟩
  | .hbm, ⟨53, _⟩ => ⟨S16384x2816, .i1⟩
  | .hbm, ⟨54, _⟩ => ⟨S16384x2816, .f32⟩
  | .hbm, ⟨55, _⟩ => ⟨S16384x2816, .f32⟩
  | .hbm, ⟨56, _⟩ => ⟨S_, .f32⟩
  | .hbm, ⟨57, _⟩ => ⟨S32x640x2816, .f32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S_, .i32⟩
  | .hbm, ⟨66, _⟩ => ⟨S16384, .i32⟩
  | .hbm, ⟨67, _⟩ => ⟨S16384, .i1⟩
  | .hbm, ⟨68, _⟩ => ⟨S_, .i32⟩
  | .hbm, ⟨69, _⟩ => ⟨S16384, .i32⟩
  | .hbm, ⟨70, _⟩ => ⟨S16384, .i32⟩
  | .hbm, ⟨71, _⟩ => ⟨S16384, .i32⟩
  | .hbm, ⟨72, _⟩ => ⟨S16384x1, .i32⟩
  | .hbm, ⟨73, _⟩ => ⟨S16384x1, .i32⟩
  | .hbm, ⟨74, _⟩ => ⟨S16384x2, .i32⟩
  | .hbm, ⟨75, _⟩ => ⟨S32x640x2816, .f32⟩
  | .hbm, ⟨76, _⟩ => ⟨S32x640x2816, .bf16⟩
  | .hbm, ⟨77, _⟩ => ⟨S32x704x2816, .bf16⟩
  | .hbm, ⟨78, _⟩ => ⟨S32x704x2816, .bf16⟩
  | .hbm, ⟨79, _⟩ => ⟨S32x2816x704, .bf16⟩
  | .hbm, ⟨80, _⟩ => ⟨S32x640x2816, .f32⟩
  | .hbm, ⟨81, _⟩ => ⟨S_, .i32⟩
  | .hbm, ⟨82, _⟩ => ⟨S16384, .i32⟩
  | .hbm, ⟨83, _⟩ => ⟨S16384, .i1⟩
  | .hbm, ⟨84, _⟩ => ⟨S_, .i32⟩
  | .hbm, ⟨85, _⟩ => ⟨S16384, .i32⟩
  | .hbm, ⟨86, _⟩ => ⟨S16384, .i32⟩
  | .hbm, ⟨87, _⟩ => ⟨S16384, .i32⟩
  | .hbm, ⟨88, _⟩ => ⟨S_, .i32⟩
  | .hbm, ⟨89, _⟩ => ⟨S16384, .i32⟩
  | .hbm, ⟨90, _⟩ => ⟨S16384, .i1⟩
  | .hbm, ⟨91, _⟩ => ⟨S_, .i32⟩
  | .hbm, ⟨92, _⟩ => ⟨S16384, .i32⟩
  | .hbm, ⟨93, _⟩ => ⟨S16384, .i32⟩
  | .hbm, ⟨94, _⟩ => ⟨S16384, .i32⟩
  | .hbm, ⟨95, _⟩ => ⟨S16384x1, .i32⟩
  | .hbm, ⟨96, _⟩ => ⟨S16384x1, .i32⟩
  | .hbm, ⟨97, _⟩ => ⟨S16384x2, .i32⟩
  | .hbm, ⟨98, _⟩ => ⟨S16384x2816, .f32⟩
  | .hbm, ⟨99, _⟩ => ⟨S16384x1, .i1⟩
  | .hbm, ⟨100, _⟩ => ⟨S_, .f32⟩
  | .hbm, ⟨101, _⟩ => ⟨S16384x2816, .i1⟩
  | .hbm, ⟨102, _⟩ => ⟨S16384x2816, .f32⟩
  | .hbm, ⟨103, _⟩ => ⟨S16384x2816, .f32⟩
  | .hbm, ⟨104, _⟩ => ⟨S2048x8x2816, .f32⟩
  | .hbm, ⟨105, _⟩ => ⟨S2048x8x1, .f32⟩
  | .hbm, ⟨106, _⟩ => ⟨S2048x8x2816, .f32⟩
  | .hbm, ⟨107, _⟩ => ⟨S2048x8x2816, .f32⟩
  | .hbm, ⟨108, _⟩ => ⟨S_, .f32⟩
  | .hbm, ⟨109, _⟩ => ⟨S2048x2816, .f32⟩
  | .local _ .vmem, ⟨0, _⟩ => ⟨S1x320x2816, .bf16⟩
  | .local _ .vmem, ⟨1, _⟩ => ⟨S1x320x2816, .bf16⟩
  | .local _ .vmem, ⟨2, _⟩ => ⟨S1x704x2816, .bf16⟩
  | .local _ .vmem, ⟨3, _⟩ => ⟨S1x704x2816, .bf16⟩
  | .local _ .vmem, ⟨4, _⟩ => ⟨S1x704x2816, .bf16⟩
  | .local _ .vmem, ⟨5, _⟩ => ⟨S1x704x2816, .bf16⟩
  | .local _ .vmem, ⟨6, _⟩ => ⟨S1x2816x704, .bf16⟩
  | .local _ .vmem, ⟨7, _⟩ => ⟨S1x2816x704, .bf16⟩
  | .local _ .vmem, ⟨8, _⟩ => ⟨S1x320x2816, .f32⟩
  | .local _ .vmem, ⟨9, _⟩ => ⟨S1x320x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_call0_c : Ref sig .tc := ⟨.hbm, 14, rfl⟩
abbrev main_call0_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_c_4 : Ref sig .tc := ⟨.hbm, 38, rfl⟩
abbrev main_call1_v14 : Ref sig .tc := ⟨.hbm, 39, rfl⟩
abbrev main_v11 : Ref sig .tc := ⟨.hbm, 40, rfl⟩
abbrev main_v12 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_v21 : Ref sig .tc := ⟨.hbm, 55, rfl⟩
abbrev main_cst_1 : Ref sig .tc := ⟨.hbm, 56, rfl⟩
abbrev main_v22 : Ref sig .tc := ⟨.hbm, 57, rfl⟩
abbrev main_c_2 : Ref sig .tc := ⟨.hbm, 58, rfl⟩
abbrev main_v23 : Ref sig .tc := ⟨.hbm, 59, rfl⟩
abbrev main_v24 : Ref sig .tc := ⟨.hbm, 60, rfl⟩
abbrev main_c_3 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_4 : Ref sig .tc := ⟨.hbm, 65, rfl⟩
abbrev main_v28 : Ref sig .tc := ⟨.hbm, 66, rfl⟩
abbrev main_v29 : Ref sig .tc := ⟨.hbm, 67, rfl⟩
abbrev main_c_5 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_c_6 : Ref sig .tc := ⟨.hbm, 81, rfl⟩
abbrev main_v42 : Ref sig .tc := ⟨.hbm, 82, rfl⟩
abbrev main_v43 : Ref sig .tc := ⟨.hbm, 83, rfl⟩
abbrev main_c_7 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_8 : Ref sig .tc := ⟨.hbm, 88, rfl⟩
abbrev main_v47 : Ref sig .tc := ⟨.hbm, 89, rfl⟩
abbrev main_v48 : Ref sig .tc := ⟨.hbm, 90, rfl⟩
abbrev main_c_9 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_10 : Ref sig .tc := ⟨.hbm, 100, rfl⟩
abbrev main_call3_v0 : Ref sig .tc := ⟨.hbm, 101, rfl⟩
abbrev main_call3_v1 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_11 : Ref sig .tc := ⟨.hbm, 108, rfl⟩
abbrev main_v62 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x320x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2816x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x320x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2048x8_S16384 : S2048x8.ShapeCasts S16384
  bcast_S16384_S16384x1_0 : S16384.BroadcastsInDim S16384x1 (![0] : Fin 1 → Fin S16384x1.rank)
  bcast_S32_S1x32_1 : S32.BroadcastsInDim S1x32 (![1] : Fin 1 → Fin S1x32.rank)
  bcast_S16384x1_S16384x32_0_1 : S16384x1.BroadcastsInDim S16384x32 (![0, 1] : Fin 2 → Fin S16384x32.rank)
  bcast_S1x32_S16384x32_0_1 : S1x32.BroadcastsInDim S16384x32 (![0, 1] : Fin 2 → Fin S16384x32.rank)
  natLt_1_32 : 1 < 32
  bcast_S_S_ : S_.BroadcastsInDim S_ (![] : Fin 0 → Fin S_.rank)
  reduceWindows_S16384x32_S16384x32_w16384s1p16383_0_w1s1p0_0 : S16384x32.ReduceWindows (![16384, 1] : Fin 2 → Nat) ![1, 1] ![16383, 0] ![0, 0] S16384x32
  h_S_ : 0 < S_.numel
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16384 : S_.BroadcastsInDim S16384 (![] : Fin 0 → Fin S16384.rank)
  bcast_S2048x2816_S2048x1x2816_0_2 : S2048x2816.BroadcastsInDim S2048x1x2816 (![0, 2] : Fin 2 → Fin S2048x1x2816.rank)
  bcast_S2048x1x2816_S2048x8x2816_0_1_2 : S2048x1x2816.BroadcastsInDim S2048x8x2816 (![0, 1, 2] : Fin 3 → Fin S2048x8x2816.rank)
  shapeCasts_S2048x8x2816_S16384x2816 : S2048x8x2816.ShapeCasts S16384x2816
  bcast_S16384x1_S16384x2816_0_1 : S16384x1.BroadcastsInDim S16384x2816 (![0, 1] : Fin 2 → Fin S16384x2816.rank)
  bcast_S_S16384x2816 : S_.BroadcastsInDim S16384x2816 (![] : Fin 0 → Fin S16384x2816.rank)
  bcast_S_S32x640x2816 : S_.BroadcastsInDim S32x640x2816 (![] : Fin 0 → Fin S32x640x2816.rank)
  concatenates_S16384x1_S16384x1_S16384x2_d1 : Shape.Concatenates [S16384x1, S16384x1] S16384x2 1
  bitsLt_bf16_f32 : FTy.bits .bf16 < FTy.bits .f32
  inb_S1x320x2816_S1x320x2816_0_0_0 : ∀ a, (![0, 0, 0] : Fin 3 → Nat) a + S1x320x2816.size a ≤ S1x320x2816.size a
  h_S1x320x2816 : 0 < S1x320x2816.numel
  shapeCasts_S1x320x2816_S320x2816 : S1x320x2816.ShapeCasts S320x2816
  inb_S1x704x2816_S1x704x2816_0_0_0 : ∀ a, (![0, 0, 0] : Fin 3 → Nat) a + S1x704x2816.size a ≤ S1x704x2816.size a
  h_S1x704x2816 : 0 < S1x704x2816.numel
  shapeCasts_S1x704x2816_S704x2816 : S1x704x2816.ShapeCasts S704x2816
  inb_S1x2816x704_S1x2816x704_0_0_0 : ∀ a, (![0, 0, 0] : Fin 3 → Nat) a + S1x2816x704.size a ≤ S1x2816x704.size a
  h_S1x2816x704 : 0 < S1x2816x704.numel
  shapeCasts_S1x2816x704_S2816x704 : S1x2816x704.ShapeCasts S2816x704
  shapeCasts_S320x2816_S1x320x2816 : S320x2816.ShapeCasts S1x320x2816
  shapeCasts_S16384x2816_S2048x8x2816 : S16384x2816.ShapeCasts S2048x8x2816
  bcast_S2048x8_S2048x8x1_0_1 : S2048x8.BroadcastsInDim S2048x8x1 (![0, 1] : Fin 2 → Fin S2048x8x1.rank)
  bcast_S2048x8x1_S2048x8x2816_0_1_2 : S2048x8x1.BroadcastsInDim S2048x8x2816 (![0, 1, 2] : Fin 3 → Fin S2048x8x2816.rank)
  reducesTo_S2048x8x2816_S2048x2816_d1 : S2048x8x2816.ReducesTo [1] S2048x2816
  gather_S16384x32_S16384x1x1_S16384x1_n_1_0_0_1_2_11_wf : GatherDims.WF S16384x32 S16384x1x1 S16384x1 [] [1] [0] [1] [0] 2 ![1, 1]
  scatter_S32x640x2816_S16384x2_S16384x2816_1_01_01_1_wf : ScatterDims.WF S32x640x2816 S16384x2 S16384x2816 [1] [0, 1] [0, 1] 1
  dot_S320x2816_S704x2816_S320x704_1_1_0_0_n_n_wf : DotDims.WF S320x2816 S704x2816 S320x704 [1] [1] [0] [0] [] []
  dot_S320x704_S2816x704_S320x2816_1_1_0_0_n_n_wf : DotDims.WF S320x704 S2816x704 S320x2816 [1] [1] [0] [0] [] []
  gather_S32x640x2816_S16384x2_S16384x2816_1_01_n_n_01_1_112816_wf : GatherDims.WF S32x640x2816 S16384x2 S16384x2816 [1] [0, 1] [] [0, 1] [] 1 ![1, 1, 2816]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x320x2816.size a ≤ S32x640x2816.size a
  hwx0_0 : ∀ i : grid0.Coords, EltTy.bits .bf16 = 32 ∨ (Rect.block (s := S32x640x2816) S1x320x2816.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x704x2816.size a ≤ S32x704x2816.size a
  hwx0_1 : ∀ i : grid0.Coords, EltTy.bits .bf16 = 32 ∨ (Rect.block (s := S32x704x2816) S1x704x2816.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x704x2816.size a ≤ S32x704x2816.size a
  hwx0_2 : ∀ i : grid0.Coords, EltTy.bits .bf16 = 32 ∨ (Rect.block (s := S32x704x2816) S1x704x2816.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2816x704.size a ≤ S32x2816x704.size a
  hwx0_3 : ∀ i : grid0.Coords, EltTy.bits .bf16 = 32 ∨ (Rect.block (s := S32x2816x704) S1x2816x704.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x320x2816.size a ≤ S32x640x2816.size a
  hwx0_4 : ∀ i : grid0.Coords, EltTy.bits .f32 = 32 ∨ (Rect.block (s := S32x640x2816) S1x320x2816.size (cc0_transform_4 i) (hinb0_4 i)).WholeWords (EltTy.packing .f32)

variable [Facts₀]

def gather_S16384x32_S16384x1x1_S16384x1_n_1_0_0_1_2_11 : GatherDims S16384x32 S16384x1x1 S16384x1 where
  offsetDims := []
  collapsedSliceDims := [1]
  operandBatchingDims := [0]
  startIndicesBatchingDims := [0]
  startIndexMap := [1]
  indexVectorDim := 2
  sliceSizes := ![1, 1]
  wf := gather_S16384x32_S16384x1x1_S16384x1_n_1_0_0_1_2_11_wf
def scatter_S32x640x2816_S16384x2_S16384x2816_1_01_01_1 : ScatterDims S32x640x2816 S16384x2 S16384x2816 where
  updateWindowDims := [1]
  insertedWindowDims := [0, 1]
  scatterDimsToOperandDims := [0, 1]
  indexVectorDim := 1
  wf := scatter_S32x640x2816_S16384x2_S16384x2816_1_01_01_1_wf
def dot_S320x2816_S704x2816_S320x704_1_1_0_0_n_n : DotDims S320x2816 S704x2816 S320x704 where
  lhsContracting := [1]
  rhsContracting := [1]
  lhsNonContracting := [0]
  rhsNonContracting := [0]
  lhsBatch := []
  rhsBatch := []
  wf := dot_S320x2816_S704x2816_S320x704_1_1_0_0_n_n_wf
def dot_S320x704_S2816x704_S320x2816_1_1_0_0_n_n : DotDims S320x704 S2816x704 S320x2816 where
  lhsContracting := [1]
  rhsContracting := [1]
  lhsNonContracting := [0]
  rhsNonContracting := [0]
  lhsBatch := []
  rhsBatch := []
  wf := dot_S320x704_S2816x704_S320x2816_1_1_0_0_n_n_wf
def gather_S32x640x2816_S16384x2_S16384x2816_1_01_n_n_01_1_112816 : GatherDims S32x640x2816 S16384x2 S16384x2816 where
  offsetDims := [1]
  collapsedSliceDims := [0, 1]
  operandBatchingDims := []
  startIndicesBatchingDims := []
  startIndexMap := [0, 1]
  indexVectorDim := 1
  sliceSizes := ![1, 1, 2816]
  wf := gather_S32x640x2816_S16384x2_S16384x2816_1_01_n_n_01_1_112816_wf

abbrev win0_0 : Pipeline.Window sig grid0 :=
  Pipeline.Window.ofSpec (Memref.whole main_v37) S1x320x2816.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1x704x2816.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x704x2816.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x2816x704.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x320x2816.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x2816 : Shape := ⟨2, ![2048, 2816]⟩
abbrev S2048x8 : Shape := ⟨2, ![2048, 8]⟩
abbrev S32x704x2816 : Shape := ⟨3, ![32, 704, 2816]⟩
abbrev S32x2816x704 : Shape := ⟨3, ![32, 2816, 704]⟩
abbrev S16384 : Shape := ⟨1, ![16384]⟩
abbrev S16384x1 : Shape := ⟨2, ![16384, 1]⟩
abbrev S32 : Shape := ⟨1, ![32]⟩
abbrev S1x32 : Shape := ⟨2, ![1, 32]⟩
abbrev S16384x32 : Shape := ⟨2, ![16384, 32]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S2048x1x2816 : Shape := ⟨3, ![2048, 1, 2816]⟩
abbrev S2048x8x2816 : Shape := ⟨3, ![2048, 8, 2816]⟩
abbrev S16384x2816 : Shape := ⟨2, ![16384, 2816]⟩
abbrev S32x640x2816 : Shape := ⟨3, ![32, 640, 2816]⟩
abbrev S16384x2 : Shape := ⟨2, ![16384, 2]⟩
abbrev S32x640x704 : Shape := ⟨3, ![32, 640, 704]⟩
abbrev S2048x8x1 : Shape := ⟨3, ![2048, 8, 1]⟩

abbrev nBuf : Space → Nat
  | .hbm => 126
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x8, .i32⟩
  | .hbm, ⟨2, _⟩ => ⟨S2048x8, .f32⟩
  | .hbm, ⟨3, _⟩ => ⟨S32x704x2816, .f32⟩
  | .hbm, ⟨4, _⟩ => ⟨S32x704x2816, .f32⟩
  | .hbm, ⟨5, _⟩ => ⟨S32x2816x704, .f32⟩
  | .hbm, ⟨6, _⟩ => ⟨S16384, .i32⟩
  | .hbm, ⟨7, _⟩ => ⟨S16384x1, .i32⟩
  | .hbm, ⟨8, _⟩ => ⟨S32, .i32⟩
  | .hbm, ⟨9, _⟩ => ⟨S1x32, .i32⟩
  | .hbm, ⟨10, _⟩ => ⟨S16384x32, .i32⟩
  | .hbm, ⟨11, _⟩ => ⟨S16384x32, .i32⟩
  | .hbm, ⟨12, _⟩ => ⟨S16384x32, .i1⟩
  | .hbm, ⟨13, _⟩ => ⟨S16384x32, .i32⟩
  | .hbm, ⟨14, _⟩ => ⟨S_, .i32⟩
  | .hbm, ⟨15, _⟩ => ⟨S_, .i32⟩
  | .hbm, ⟨16, _⟩ => ⟨S16384x32, .i32⟩
  | .hbm, ⟨17, _⟩ => ⟨S16384x32, .i32⟩
  | .hbm, ⟨18, _⟩ => ⟨S16384x1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S_, .i32⟩
  | .hbm, ⟨23, _⟩ => ⟨S16384x1, .i32⟩
  | .hbm, ⟨24, _⟩ => ⟨S16384x1, .i32⟩
  | .hbm, ⟨25, _⟩ => ⟨S16384x1, .i32⟩
  | .hbm, ⟨26, _⟩ => ⟨S16384x1x1, .i32⟩
  | .hbm, ⟨27, _⟩ => ⟨S1, .i32⟩
  | .hbm, ⟨28, _⟩ => ⟨S_, .i32⟩
  | .hbm, ⟨29, _⟩ => ⟨S16384x1x1, .i32⟩
  | .hbm, ⟨30, _⟩ => ⟨S16384x1x1, .i1⟩
  | .hbm, ⟨31, _⟩ => ⟨S1x1x1, .i32⟩
  | .hbm, ⟨32, _⟩ => ⟨S16384x1x1, .i32⟩
  | .hbm, ⟨33, _⟩ => ⟨S16384x1x1, .i1⟩
  | .hbm, ⟨34, _⟩ => ⟨S16384x1x1, .i1⟩
  | .hbm, ⟨35, _⟩ => ⟨S_, .i1⟩
  | .hbm, ⟨36, _⟩ => ⟨S16384x1, .i1⟩
  | .hbm, ⟨37, _⟩ => ⟨S16384x1, .i32⟩
  | .hbm, ⟨38, _⟩ => ⟨S_, .i32⟩
  | .hbm, ⟨39, _⟩ => ⟨S16384x1, .i32⟩
  | .hbm, ⟨40, _⟩ => ⟨S16384x1, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S2048x1x2816, .f32⟩
  | .hbm, ⟨49, _⟩ => ⟨S2048x8x2816, .f32⟩
  | .hbm, ⟨50, _⟩ => ⟨S16384x2816, .f32⟩
  | .hbm, ⟨51, _⟩ => ⟨S16384x1, .i1⟩
  | .hbm, ⟨52, _⟩ => ⟨S_, .f32⟩
  | .hbm, ⟨53, _⟩ => ⟨S16384x2816, .i1⟩
  | .hbm, ⟨54, _⟩ => ⟨S16384x2816, .f32⟩
  | .hbm, ⟨55, _⟩ => ⟨S16384x2816, .f32⟩
  | .hbm, ⟨56, _⟩ => ⟨S_, .f32⟩
  | .hbm, ⟨57, _⟩ => ⟨S32x640x2816, .f32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S_, .i32⟩
  | .hbm, ⟨66, _⟩ => ⟨S16384, .i32⟩
  | .hbm, ⟨67, _⟩ => ⟨S16384, .i1⟩
  | .hbm, ⟨68, _⟩ => ⟨S_, .i32⟩
  | .hbm, ⟨69, _⟩ => ⟨S16384, .i32⟩
  | .hbm, ⟨70, _⟩ => ⟨S16384, .i32⟩
  | .hbm, ⟨71, _⟩ => ⟨S16384, .i32⟩
  | .hbm, ⟨72, _⟩ => ⟨S16384x1, .i32⟩
  | .hbm, ⟨73, _⟩ => ⟨S16384x1, .i32⟩
  | .hbm, ⟨74, _⟩ => ⟨S16384x2, .i32⟩
  | .hbm, ⟨75, _⟩ => ⟨S32x640x2816, .f32⟩
  | .hbm, ⟨76, _⟩ => ⟨S32x640x704, .f32⟩
  | .hbm, ⟨77, _⟩ => ⟨S32x640x704, .f32⟩
  | .hbm, ⟨78, _⟩ => ⟨S32x640x704, .f32⟩
  | .hbm, ⟨79, _⟩ => ⟨S32x640x704, .f32⟩
  | .hbm, ⟨80, _⟩ => ⟨S_, .f32⟩
  | .hbm, ⟨81, _⟩ => ⟨S32x640x704, .f32⟩
  | .hbm, ⟨82, _⟩ => ⟨S32x640x704, .f32⟩
  | .hbm, ⟨83, _⟩ => ⟨S32x640x704, .f32⟩
  | .hbm, ⟨84, _⟩ => ⟨S_, .f32⟩
  | .hbm, ⟨85, _⟩ => ⟨S32x640x704, .f32⟩
  | .hbm, ⟨86, _⟩ => ⟨S32x640x704, .f32⟩
  | .hbm, ⟨87, _⟩ => ⟨S32x640x704, .f32⟩
  | .hbm, ⟨88, _⟩ => ⟨S_, .f32⟩
  | .hbm, ⟨89, _⟩ => ⟨S32x640x704, .f32⟩
  | .hbm, ⟨90, _⟩ => ⟨S32x640x704, .f32⟩
  | .hbm, ⟨91, _⟩ => ⟨S_, .f32⟩
  | .hbm, ⟨92, _⟩ => ⟨S32x640x704, .f32⟩
  | .hbm, ⟨93, _⟩ => ⟨S32x640x704, .f32⟩
  | .hbm, ⟨94, _⟩ => ⟨S32x640x704, .f32⟩
  | .hbm, ⟨95, _⟩ => ⟨S32x640x704, .f32⟩
  | .hbm, ⟨96, _⟩ => ⟨S32x640x2816, .f32⟩
  | .hbm, ⟨97, _⟩ => ⟨S_, .i32⟩
  | .hbm, ⟨98, _⟩ => ⟨S16384, .i32⟩
  | .hbm, ⟨99, _⟩ => ⟨S16384, .i1⟩
  | .hbm, ⟨100, _⟩ => ⟨S_, .i32⟩
  | .hbm, ⟨101, _⟩ => ⟨S16384, .i32⟩
  | .hbm, ⟨102, _⟩ => ⟨S16384, .i32⟩
  | .hbm, ⟨103, _⟩ => ⟨S16384, .i32⟩
  | .hbm, ⟨104, _⟩ => ⟨S_, .i32⟩
  | .hbm, ⟨105, _⟩ => ⟨S16384, .i32⟩
  | .hbm, ⟨106, _⟩ => ⟨S16384, .i1⟩
  | .hbm, ⟨107, _⟩ => ⟨S_, .i32⟩
  | .hbm, ⟨108, _⟩ => ⟨S16384, .i32⟩
  | .hbm, ⟨109, _⟩ => ⟨S16384, .i32⟩
  | .hbm, ⟨110, _⟩ => ⟨S16384, .i32⟩
  | .hbm, ⟨111, _⟩ => ⟨S16384x1, .i32⟩
  | .hbm, ⟨112, _⟩ => ⟨S16384x1, .i32⟩
  | .hbm, ⟨113, _⟩ => ⟨S16384x2, .i32⟩
  | .hbm, ⟨114, _⟩ => ⟨S16384x2816, .f32⟩
  | .hbm, ⟨115, _⟩ => ⟨S16384x1, .i1⟩
  | .hbm, ⟨116, _⟩ => ⟨S_, .f32⟩
  | .hbm, ⟨117, _⟩ => ⟨S16384x2816, .i1⟩
  | .hbm, ⟨118, _⟩ => ⟨S16384x2816, .f32⟩
  | .hbm, ⟨119, _⟩ => ⟨S16384x2816, .f32⟩
  | .hbm, ⟨120, _⟩ => ⟨S2048x8x2816, .f32⟩
  | .hbm, ⟨121, _⟩ => ⟨S2048x8x1, .f32⟩
  | .hbm, ⟨122, _⟩ => ⟨S2048x8x2816, .f32⟩
  | .hbm, ⟨123, _⟩ => ⟨S2048x8x2816, .f32⟩
  | .hbm, ⟨124, _⟩ => ⟨S_, .f32⟩
  | .hbm, ⟨125, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_call0_c : Ref sig .tc := ⟨.hbm, 14, rfl⟩
abbrev main_call0_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_c_4 : Ref sig .tc := ⟨.hbm, 38, rfl⟩
abbrev main_call1_v14 : Ref sig .tc := ⟨.hbm, 39, rfl⟩
abbrev main_v11 : Ref sig .tc := ⟨.hbm, 40, rfl⟩
abbrev main_v12 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_v21 : Ref sig .tc := ⟨.hbm, 55, rfl⟩
abbrev main_cst_1 : Ref sig .tc := ⟨.hbm, 56, rfl⟩
abbrev main_v22 : Ref sig .tc := ⟨.hbm, 57, rfl⟩
abbrev main_c_2 : Ref sig .tc := ⟨.hbm, 58, rfl⟩
abbrev main_v23 : Ref sig .tc := ⟨.hbm, 59, rfl⟩
abbrev main_v24 : Ref sig .tc := ⟨.hbm, 60, rfl⟩
abbrev main_c_3 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_4 : Ref sig .tc := ⟨.hbm, 65, rfl⟩
abbrev main_v28 : Ref sig .tc := ⟨.hbm, 66, rfl⟩
abbrev main_v29 : Ref sig .tc := ⟨.hbm, 67, rfl⟩
abbrev main_c_5 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_6 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_7 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_8 : Ref sig .tc := ⟨.hbm, 88, rfl⟩
abbrev main_v47 : Ref sig .tc := ⟨.hbm, 89, rfl⟩
abbrev main_v48 : Ref sig .tc := ⟨.hbm, 90, rfl⟩
abbrev main_cst_9 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_10 : Ref sig .tc := ⟨.hbm, 97, rfl⟩
abbrev main_v54 : Ref sig .tc := ⟨.hbm, 98, rfl⟩
abbrev main_v55 : Ref sig .tc := ⟨.hbm, 99, rfl⟩
abbrev main_c_11 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_c_12 : Ref sig .tc := ⟨.hbm, 104, rfl⟩
abbrev main_v59 : Ref sig .tc := ⟨.hbm, 105, rfl⟩
abbrev main_v60 : Ref sig .tc := ⟨.hbm, 106, rfl⟩
abbrev main_c_13 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_14 : Ref sig .tc := ⟨.hbm, 116, rfl⟩
abbrev main_call3_v0 : Ref sig .tc := ⟨.hbm, 117, rfl⟩
abbrev main_call3_v1 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_15 : Ref sig .tc := ⟨.hbm, 124, rfl⟩
abbrev main_v74 : Ref sig .tc := ⟨.hbm, 125, rfl⟩

abbrev nD : Nat := 1
abbrev τ : Topo := Topo.v7x

variable {F : FTy → Type} [FloatOps F]

class Facts₀ : Prop where
  shapeCasts_S2048x8_S16384 : S2048x8.ShapeCasts S16384
  bcast_S16384_S16384x1_0 : S16384.BroadcastsInDim S16384x1 (![0] : Fin 1 → Fin S16384x1.rank)
  bcast_S32_S1x32_1 : S32.BroadcastsInDim S1x32 (![1] : Fin 1 → Fin S1x32.rank)
  bcast_S16384x1_S16384x32_0_1 : S16384x1.BroadcastsInDim S16384x32 (![0, 1] : Fin 2 → Fin S16384x32.rank)
  bcast_S1x32_S16384x32_0_1 : S1x32.BroadcastsInDim S16384x32 (![0, 1] : Fin 2 → Fin S16384x32.rank)
  natLt_1_32 : 1 < 32
  bcast_S_S_ : S_.BroadcastsInDim S_ (![] : Fin 0 → Fin S_.rank)
  reduceWindows_S16384x32_S16384x32_w16384s1p16383_0_w1s1p0_0 : S16384x32.ReduceWindows (![16384, 1] : Fin 2 → Nat) ![1, 1] ![16383, 0] ![0, 0] S16384x32
  h_S_ : 0 < S_.numel
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16384 : S_.BroadcastsInDim S16384 (![] : Fin 0 → Fin S16384.rank)
  bcast_S2048x2816_S2048x1x2816_0_2 : S2048x2816.BroadcastsInDim S2048x1x2816 (![0, 2] : Fin 2 → Fin S2048x1x2816.rank)
  bcast_S2048x1x2816_S2048x8x2816_0_1_2 : S2048x1x2816.BroadcastsInDim S2048x8x2816 (![0, 1, 2] : Fin 3 → Fin S2048x8x2816.rank)
  shapeCasts_S2048x8x2816_S16384x2816 : S2048x8x2816.ShapeCasts S16384x2816
  bcast_S16384x1_S16384x2816_0_1 : S16384x1.BroadcastsInDim S16384x2816 (![0, 1] : Fin 2 → Fin S16384x2816.rank)
  bcast_S_S16384x2816 : S_.BroadcastsInDim S16384x2816 (![] : Fin 0 → Fin S16384x2816.rank)
  bcast_S_S32x640x2816 : S_.BroadcastsInDim S32x640x2816 (![] : Fin 0 → Fin S32x640x2816.rank)
  concatenates_S16384x1_S16384x1_S16384x2_d1 : Shape.Concatenates [S16384x1, S16384x1] S16384x2 1
  bcast_S_S32x640x704 : S_.BroadcastsInDim S32x640x704 (![] : Fin 0 → Fin S32x640x704.rank)
  shapeCasts_S16384x2816_S2048x8x2816 : S16384x2816.ShapeCasts S2048x8x2816
  bcast_S2048x8_S2048x8x1_0_1 : S2048x8.BroadcastsInDim S2048x8x1 (![0, 1] : Fin 2 → Fin S2048x8x1.rank)
  bcast_S2048x8x1_S2048x8x2816_0_1_2 : S2048x8x1.BroadcastsInDim S2048x8x2816 (![0, 1, 2] : Fin 3 → Fin S2048x8x2816.rank)
  reducesTo_S2048x8x2816_S2048x2816_d1 : S2048x8x2816.ReducesTo [1] S2048x2816
  gather_S16384x32_S16384x1x1_S16384x1_n_1_0_0_1_2_11_wf : GatherDims.WF S16384x32 S16384x1x1 S16384x1 [] [1] [0] [1] [0] 2 ![1, 1]
  scatter_S32x640x2816_S16384x2_S16384x2816_1_01_01_1_wf : ScatterDims.WF S32x640x2816 S16384x2 S16384x2816 [1] [0, 1] [0, 1] 1
  dot_S32x640x2816_S32x704x2816_S32x640x704_2_2_1_1_0_0_wf : DotDims.WF S32x640x2816 S32x704x2816 S32x640x704 [2] [2] [1] [1] [0] [0]
  dot_S32x640x704_S32x2816x704_S32x640x2816_2_2_1_1_0_0_wf : DotDims.WF S32x640x704 S32x2816x704 S32x640x2816 [2] [2] [1] [1] [0] [0]
  gather_S32x640x2816_S16384x2_S16384x2816_1_01_n_n_01_1_112816_wf : GatherDims.WF S32x640x2816 S16384x2 S16384x2816 [1] [0, 1] [] [0, 1] [] 1 ![1, 1, 2816]

variable [Facts₀]

def gather_S16384x32_S16384x1x1_S16384x1_n_1_0_0_1_2_11 : GatherDims S16384x32 S16384x1x1 S16384x1 where
  offsetDims := []
  collapsedSliceDims := [1]
  operandBatchingDims := [0]
  startIndicesBatchingDims := [0]
  startIndexMap := [1]
  indexVectorDim := 2
  sliceSizes := ![1, 1]
  wf := gather_S16384x32_S16384x1x1_S16384x1_n_1_0_0_1_2_11_wf
def scatter_S32x640x2816_S16384x2_S16384x2816_1_01_01_1 : ScatterDims S32x640x2816 S16384x2 S16384x2816 where
  updateWindowDims := [1]
  insertedWindowDims := [0, 1]
  scatterDimsToOperandDims := [0, 1]
  indexVectorDim := 1
  wf := scatter_S32x640x2816_S16384x2_S16384x2816_1_01_01_1_wf
def dot_S32x640x2816_S32x704x2816_S32x640x704_2_2_1_1_0_0 : DotDims S32x640x2816 S32x704x2816 S32x640x704 where
  lhsContracting := [2]
  rhsContracting := [2]
  lhsNonContracting := [1]
  rhsNonContracting := [1]
  lhsBatch := [0]
  rhsBatch := [0]
  wf := dot_S32x640x2816_S32x704x2816_S32x640x704_2_2_1_1_0_0_wf
def dot_S32x640x704_S32x2816x704_S32x640x2816_2_2_1_1_0_0 : DotDims S32x640x704 S32x2816x704 S32x640x2816 where
  lhsContracting := [2]
  rhsContracting := [2]
  lhsNonContracting := [1]
  rhsNonContracting := [1]
  lhsBatch := [0]
  rhsBatch := [0]
  wf := dot_S32x640x704_S32x2816x704_S32x640x2816_2_2_1_1_0_0_wf
def gather_S32x640x2816_S16384x2_S16384x2816_1_01_n_n_01_1_112816 : GatherDims S32x640x2816 S16384x2 S16384x2816 where
  offsetDims := [1]
  collapsedSliceDims := [0, 1]
  operandBatchingDims := []
  startIndicesBatchingDims := []
  startIndexMap := [0, 1]
  indexVectorDim := 1
  sliceSizes := ![1, 1, 2816]
  wf := gather_S32x640x2816_S16384x2_S16384x2816_1_01_n_n_01_1_112816_wf

class Facts : Prop extends Facts₀ where

variable [Facts]
-- ==== Proof.Spec.lean ====
/-
  One expert's gated layers on one row, over the extended reals.

  A row x of length H meets two weight matrices Wg, Wu of shape [I, H] and one row wd of length I:
  with g_i = ∑ₖ xₖ · Wg(i,k) and u_i = ∑ₖ xₖ · Wu(i,k), the result is ∑ᵢ gate(g_i, u_i) · wd_i, where
  gate(g, u) = g · (½ · (1 + tanh(s · (g + c · g³)))) · u is the tanh form of GELU times the second
  product (s and c are the two float words both programs print; they are never evaluated).
  expertArr is that function read off whole arrays: entry (e, r, h) of the result uses row (e, r) of
  the token buffer, expert e's two [I, H] matrices, and row (e, h) of expert e's [H, I] matrix.
  Also here: a sum over a one-axis contraction index as a sum over its coordinate, and the cube written
  as g · (g · g) or as (g · g) · g.
-/
import Idealize.ShloMosaic.PureOps.Ideal.Laws
import Idealize.ShloMosaic.Lib.ValueIdx

noncomputable section

namespace Cert.Moe

open Idealize.ShloMosaic Idealize.ShloMosaic.ValueIdx

/-- The tanh form of GELU applied to g, times u; the cube as g · (g · g). -/
def gate (g u : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g)))))) * u

/-- The same with the cube as (g · g) · g: multiplication of extended reals commutes. -/
theorem gate_cube_comm (g u : EReal) :
    g * (Ideal.ofBits .f32 0x3F000000#32 * (Ideal.ofBits .f32 0x3F800000#32
      + Ideal.tanh (Ideal.ofBits .f32 0x3F4C422A#32 * (g + Ideal.ofBits .f32 0x3D372713#32 * (g * g * g))))) * u = gate g u := by
  unfold gate; rw [mul_comm (g * g) g]

/-- One expert's layers on one row. -/
def expertRow {H I : ℕ} (x : Fin H → EReal) (wg wu : Fin I → Fin H → EReal) (wd : Fin I → EReal) : EReal :=
  ∑ i : Fin I, gate (∑ k : Fin H, x k * wg i k) (∑ k : Fin H, x k * wu i k) * wd i

/-- The layers of every expert on every row of its buffer: entry (e, r, h). -/
def expertArr {E C H I : ℕ} (x : (⟨3, ![E, C, H]⟩ : Shape).Idx → EReal) (wg wu : (⟨3, ![E, I, H]⟩ : Shape).Idx → EReal)
    (wd : (⟨3, ![E, H, I]⟩ : Shape).Idx → EReal) (e : Fin E) (r : Fin C) (h : Fin H) : EReal :=
  expertRow (fun k => x (ix3 e r k)) (fun i k => wg (ix3 e i k)) (fun i k => wu (ix3 e i k)) (fun i => wd (ix3 e h i))

/-- The layers depend on their four arguments entry by entry. -/
theorem expertRow_congr {H I : ℕ} {x x' : Fin H → EReal} {wg wg' wu wu' : Fin I → Fin H → EReal} {wd wd' : Fin I → EReal}
    (hx : ∀ k, x k = x' k) (hg : ∀ i k, wg i k = wg' i k) (hu : ∀ i k, wu i k = wu' i k) (hd : ∀ i, wd i = wd' i) :
    expertRow x wg wu wd = expertRow x' wg' wu' wd' := by
  obtain rfl : x = x' := funext hx
  obtain rfl : wg = wg' := funext fun i => funext (hg i)
  obtain rfl : wu = wu' := funext fun i => funext (hu i)
  obtain rfl : wd = wd' := funext hd
  rfl

/-- A sum over the positions of a one-axis contraction of extent n is the sum over that axis's coordinate. -/
theorem sum_contr1 {sl sr so : Shape} (d : DotDims sl sr so) (n : ℕ) (hr : d.contr.rank = 1)
    (hs : d.contr.size ⟨0, by omega⟩ = n) (f : d.contr.Idx → EReal) :
    ∑ q : d.contr.Idx, f q = ∑ k : Fin n, f ((contrEquiv1 d n hr hs).symm k) :=
  (Equiv.sum_comp (contrEquiv1 d n hr hs).symm f).symm

end Cert.Moe

end
-- ==== Proof.KernelBody.lean ====
/-
  The kernel body's stored block, entry by entry.

  The body reads one [1, 320, H] block of the token buffer and one expert's three weight blocks, drops the
  unit axis, forms the two products x · Wgᵀ and x · Wuᵀ into zero accumulators, applies the gate entrywise,
  multiplies by Wdᵀ, and stores the [1, 320, H] result. Entry (·, r, h) of what it stores is therefore the
  expert's layers on row r of the token block, read against row h of the third weight block.
-/
import proofs.«105757_j30288109371940_1_alg».proof.Proof.Gen.KernelIdeal.Skeleton
import proofs.«105757_j30288109371940_1_alg».proof.Proof.Spec
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen Cert.Moe

/-- The dimension numbers of the first two products: [320, H] by [I, H], axis 1 of both contracted. -/
abbrev D1 : DotDims S320x2816 S704x2816 S320x704 := dot_S320x2816_S704x2816_S320x704_1_1_0_0_n_n
/-- The dimension numbers of the third product: [320, I] by [H, I], axis 1 of both contracted. -/
abbrev D2 : DotDims S320x704 S2816x704 S320x2816 := dot_S320x704_S2816x704_S320x2816_1_1_0_0_n_n

theorem d1_lhs0 (j : S320x704.Idx) (q : D1.contr.Idx) : (D1.lhsIdx j q 0 : ℕ) = j 0 := by
  simp [DotDims.lhsIdx, D1, dot_S320x2816_S704x2816_S320x704_1_1_0_0_n_n]; rfl
theorem d1_lhs1 (j : S320x704.Idx) (q : D1.contr.Idx) : (D1.lhsIdx j q 1 : ℕ) = q ⟨0, by decide⟩ := by
  simp [DotDims.lhsIdx, D1, dot_S320x2816_S704x2816_S320x704_1_1_0_0_n_n]; rfl
theorem d1_rhs0 (j : S320x704.Idx) (q : D1.contr.Idx) : (D1.rhsIdx j q 0 : ℕ) = j 1 := by
  simp [DotDims.rhsIdx, D1, dot_S320x2816_S704x2816_S320x704_1_1_0_0_n_n]; rfl
theorem d1_rhs1 (j : S320x704.Idx) (q : D1.contr.Idx) : (D1.rhsIdx j q 1 : ℕ) = q ⟨0, by decide⟩ := by
  simp [DotDims.rhsIdx, D1, dot_S320x2816_S704x2816_S320x704_1_1_0_0_n_n]; rfl

theorem d2_lhs0 (j : S320x2816.Idx) (q : D2.contr.Idx) : (D2.lhsIdx j q 0 : ℕ) = j 0 := by
  simp [DotDims.lhsIdx, D2, dot_S320x704_S2816x704_S320x2816_1_1_0_0_n_n]; rfl
theorem d2_lhs1 (j : S320x2816.Idx) (q : D2.contr.Idx) : (D2.lhsIdx j q 1 : ℕ) = q ⟨0, by decide⟩ := by
  simp [DotDims.lhsIdx, D2, dot_S320x704_S2816x704_S320x2816_1_1_0_0_n_n]; rfl
theorem d2_rhs0 (j : S320x2816.Idx) (q : D2.contr.Idx) : (D2.rhsIdx j q 0 : ℕ) = j 1 := by
  simp [DotDims.rhsIdx, D2, dot_S320x704_S2816x704_S320x2816_1_1_0_0_n_n]; rfl
theorem d2_rhs1 (j : S320x2816.Idx) (q : D2.contr.Idx) : (D2.rhsIdx j q 1 : ℕ) = q ⟨0, by decide⟩ := by
  simp [DotDims.rhsIdx, D2, dot_S320x704_S2816x704_S320x2816_1_1_0_0_n_n]; rfl

/-- Entry (r, i) of a · bᵀ into a zero accumulator is ∑ₖ a(r,k) · b(i,k). -/
theorem mm1_apply (a : FVec Ideal S320x2816 .bf16) (b : FVec Ideal S704x2816 .bf16) (r : Fin 320) (i : Fin 704) :
    matmul D1 none a b (constant (F := Ideal) S320x704 .f32 0x00000000#32) (ix2 r i)
      = ∑ k : Fin 2816, a (ix2 r k) * b (ix2 i k) := by
  show FloatOps.matmul D1 none a b (constant (F := Ideal) S320x704 .f32 0x00000000#32) (ix2 r i) = _
  rw [Ideal.matmul_constant_zero_apply, sum_contr1 D1 2816 rfl rfl]
  refine Finset.sum_congr rfl fun k _ => ?_
  have hk := contrEquiv1_symm_val D1 2816 rfl rfl k
  have el : D1.lhsIdx (ix2 r i) ((contrEquiv1 D1 2816 rfl rfl).symm k) = ix2 r k := funext fun a => Fin.ext (by
    match a with
    | ⟨0, _⟩ => exact d1_lhs0 _ _
    | ⟨1, _⟩ => exact (d1_lhs1 _ _).trans hk)
  have er : D1.rhsIdx (ix2 r i) ((contrEquiv1 D1 2816 rfl rfl).symm k) = ix2 i k := funext fun a => Fin.ext (by
    match a with
    | ⟨0, _⟩ => exact d1_rhs0 _ _
    | ⟨1, _⟩ => exact (d1_rhs1 _ _).trans hk)
  rw [el, er]

/-- Entry (r, h) of a · bᵀ into a zero accumulator is ∑ᵢ a(r,i) · b(h,i). -/
theorem mm2_apply (a : FVec Ideal S320x704 .bf16) (b : FVec Ideal S2816x704 .bf16) (r : Fin 320) (h : Fin 2816) :
    matmul D2 none a b (constant (F := Ideal) S320x2816 .f32 0x00000000#32) (ix2 r h)
      = ∑ i : Fin 704, a (ix2 r i) * b (ix2 h i) := by
  show FloatOps.matmul D2 none a b (constant (F := Ideal) S320x2816 .f32 0x00000000#32) (ix2 r h) = _
  rw [Ideal.matmul_constant_zero_apply, sum_contr1 D2 704 rfl rfl]
  refine Finset.sum_congr rfl fun k _ => ?_
  have hk := contrEquiv1_symm_val D2 704 rfl rfl k
  have el : D2.lhsIdx (ix2 r h) ((contrEquiv1 D2 704 rfl rfl).symm k) = ix2 r k := funext fun a => Fin.ext (by
    match a with
    | ⟨0, _⟩ => exact d2_lhs0 _ _
    | ⟨1, _⟩ => exact (d2_lhs1 _ _).trans hk)
  have er : D2.rhsIdx (ix2 r h) ((contrEquiv1 D2 704 rfl rfl).symm k) = ix2 h k := funext fun a => Fin.ext (by
    match a with
    | ⟨0, _⟩ => exact d2_rhs0 _ _
    | ⟨1, _⟩ => exact (d2_rhs1 _ _).trans hk)
  rw [el, er]

/-- The body's entrywise arithmetic between the products is the gate at each entry. -/
theorem gate_vec (g u : FVec Ideal S320x704 .f32) (j : S320x704.Idx) :
    mulf (mulf g (mulf (broadcast S320x704 (Scalar.ofBits .f32 0x3F000000#32))
      (addf (broadcast S320x704 (Scalar.ofBits .f32 0x3F800000#32))
        (tanh (mulf (broadcast S320x704 (Scalar.ofBits .f32 0x3F4C422A#32))
          (addf g (mulf (broadcast S320x704 (Scalar.ofBits .f32 0x3D372713#32)) (mulf g (mulf g g))))))))) u j
      = gate (g j) (u j) := rfl

/-- Entry (u, r, h) of the stored block: the expert's layers on row r of the token block against row h of the
    third weight block. -/
theorem pay_apply (x0 : Vec Ideal S1x320x2816 .bf16) (x1 x2 : Vec Ideal S1x704x2816 .bf16) (x3 : Vec Ideal S1x2816x704 .bf16)
    (u : Fin 1) (r : Fin 320) (h : Fin 2816) :
    k0_pay1 x0 x1 x2 x3 (ix3 u r h)
      = expertRow (fun k => x0 (ix3 (0 : Fin 1) r k)) (fun i k => x1 (ix3 (0 : Fin 1) i k))
          (fun i k => x2 (ix3 (0 : Fin 1) i k)) (fun i => x3 (ix3 (0 : Fin 1) h i)) := by
  unfold k0_pay1
  rw [shapeCast_ab_1ab_apply, mm2_apply]
  unfold expertRow
  refine Finset.sum_congr rfl fun i _ => ?_
  rw [truncf_apply, gate_vec, mm1_apply, mm1_apply]
  simp only [shapeCast_1ab_ab_apply]

end Cert.KernelIdeal.Body

end
-- ==== Proof.KernelArray.lean ====
/-
  The kernel's output array after the region, entry by entry.

  The grid has one point per (expert e, half c of the expert's 640 slots). Point (e, c) reads rows
  320·c … 320·c + 319 of expert e's token buffer and expert e's three weight matrices whole, and writes
  rows 320·c … 320·c + 319 of expert e's output. So what it writes back is that block of ONE function of
  the four arrays — the expert layers, entry (e, r, h) — and the 64 blocks tile the output array:
  after the region the array holds that function everywhere.
-/
import proofs.«105757_j30288109371940_1_alg».proof.Proof.Gen.KernelIdeal.Frame
import proofs.«105757_j30288109371940_1_alg».proof.Proof.KernelBody

noncomputable section

namespace Cert.KernelIdeal.Arr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Moe

variable (m : (ℓ : Loc nD τ sig) → Buf (Elt Ideal) ℓ)

theorem hz : (![0, 0, 0] : Fin 3 → Nat) = fun _ => 0 := funext fun a => by fin_cases a <;> rfl

/-- The expert layers of the four arrays the region finds: entry (e, r, h). -/
def G (c : Dev nD) : S32x640x2816.Idx → EReal := fun j =>
  expertArr (V m c main_v37 : Vec Ideal S32x640x2816 .bf16) (V m c main_v38 : Vec Ideal S32x704x2816 .bf16)
    (V m c main_v39 : Vec Ideal S32x704x2816 .bf16) (V m c main_v40 : Vec Ideal S32x2816x704 .bf16) (j 0) (j 1) (j 2)

/-- The printed index maps over the 64 points: every input block follows the output block's expert, the token
    block also its half, and the other block coordinates are zero. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (2 : Fin 3) = 0 :=
  (by decide +kernel : ∀ t : Fin grid0.N, _)

/-- Every (expert, half) is some point's output block. -/
theorem idx_onto : ∀ (q0 : Fin 32) (q1 : Fin 2), ∃ t : Fin cfg0.N, win0_4.index t = ![q0.val, q1.val, 0] :=
  (by decide +kernel : ∀ (q0 : Fin 32) (q1 : Fin 2), ∃ t : Fin grid0.N, win0_4.index t = ![q0.val, q1.val, 0])

/-- What point t writes back is the body's stored block of the point's input blocks. -/
theorem flushed_pay (c : Dev nD) (t : Fin cfg0.N) :
    (dats m 0 c).flushed 4 t = k0_pay1 (iblk m c 0 t) (iblk m c 1 t) (iblk m c 2 t) (iblk m c 3 t) := by
  show (cfg0.win 4).cut (grid0.coords t) ((dats m 0 c).after 4 t) = _
  rw [after0_4]
  unfold out0_4
  rw [View.canon_unit_zero hz]
  simp only [View.ld_unit_zero (S := S1x320x2816) hz, View.ld_unit_zero (S := S1x704x2816) hz, View.ld_unit_zero (S := S1x2816x704) hz]
  rfl

/-- Row r of point t's token block is row (expert, 320·half + r) of the token buffer. -/
theorem blk0 (c : Dev nD) (t : Fin cfg0.N) (u : Fin 1) (r : Fin 320) (h : Fin 2816) (k : Fin 2816) :
    iblk m c 0 t (ix3 (0 : Fin 1) r k) = V m c main_v37 (ix3 ((((cfg0.win 4).blk t).view.emb (ix3 u r h)) 0) ((((cfg0.win 4).blk t).view.emb (ix3 u r h)) 1) k) := by
  obtain ⟨e00, e01, e02, e10, e11, e12, e20, e21, e22, e30, e31, e32, e42⟩ := idx_facts t
  have hu : u.val = 0 := by omega
  show V m c main_v37 (((cfg0.win 0).blk t).view.emb (ix3 (0 : Fin 1) r k)) = V m c main_v37 _
  refine congrArg (V m c main_v37) (funext fun a => Fin.ext ?_)
  match a with
  | ⟨0, _⟩ => show win0_0.index t (0 : Fin 3) * 1 + 1 * 0 = win0_4.index t (0 : Fin 3) * 1 + 1 * u.val; omega
  | ⟨1, _⟩ => show win0_0.index t (1 : Fin 3) * 320 + 1 * r.val = win0_4.index t (1 : Fin 3) * 320 + 1 * r.val; omega
  | ⟨2, _⟩ => show win0_0.index t (2 : Fin 3) * 2816 + 1 * k.val = k.val; omega

/-- Point t's first weight block is the expert's whole matrix. -/
theorem blk1 (c : Dev nD) (t : Fin cfg0.N) (u : Fin 1) (r : Fin 320) (h : Fin 2816) (i : Fin 704) (k : Fin 2816) :
    iblk m c 1 t (ix3 (0 : Fin 1) i k) = V m c main_v38 (ix3 ((((cfg0.win 4).blk t).view.emb (ix3 u r h)) 0) i k) := by
  obtain ⟨e00, e01, e02, e10, e11, e12, e20, e21, e22, e30, e31, e32, e42⟩ := idx_facts t
  have hu : u.val = 0 := by omega
  show V m c main_v38 (((cfg0.win 1).blk t).view.emb (ix3 (0 : Fin 1) i k)) = V m c main_v38 _
  refine congrArg (V m c main_v38) (funext fun a => Fin.ext ?_)
  match a with
  | ⟨0, _⟩ => show win0_1.index t (0 : Fin 3) * 1 + 1 * 0 = win0_4.index t (0 : Fin 3) * 1 + 1 * u.val; omega
  | ⟨1, _⟩ => show win0_1.index t (1 : Fin 3) * 704 + 1 * i.val = i.val; omega
  | ⟨2, _⟩ => show win0_1.index t (2 : Fin 3) * 2816 + 1 * k.val = k.val; omega

/-- Point t's second weight block is the expert's whole matrix. -/
theorem blk2 (c : Dev nD) (t : Fin cfg0.N) (u : Fin 1) (r : Fin 320) (h : Fin 2816) (i : Fin 704) (k : Fin 2816) :
    iblk m c 2 t (ix3 (0 : Fin 1) i k) = V m c main_v39 (ix3 ((((cfg0.win 4).blk t).view.emb (ix3 u r h)) 0) i k) := by
  obtain ⟨e00, e01, e02, e10, e11, e12, e20, e21, e22, e30, e31, e32, e42⟩ := idx_facts t
  have hu : u.val = 0 := by omega
  show V m c main_v39 (((cfg0.win 2).blk t).view.emb (ix3 (0 : Fin 1) i k)) = V m c main_v39 _
  refine congrArg (V m c main_v39) (funext fun a => Fin.ext ?_)
  match a with
  | ⟨0, _⟩ => show win0_2.index t (0 : Fin 3) * 1 + 1 * 0 = win0_4.index t (0 : Fin 3) * 1 + 1 * u.val; omega
  | ⟨1, _⟩ => show win0_2.index t (1 : Fin 3) * 704 + 1 * i.val = i.val; omega
  | ⟨2, _⟩ => show win0_2.index t (2 : Fin 3) * 2816 + 1 * k.val = k.val; omega

/-- Point t's third weight block is the expert's whole matrix. -/
theorem blk3 (c : Dev nD) (t : Fin cfg0.N) (u : Fin 1) (r : Fin 320) (h : Fin 2816) (i : Fin 704) :
    iblk m c 3 t (ix3 (0 : Fin 1) h i) = V m c main_v40 (ix3 ((((cfg0.win 4).blk t).view.emb (ix3 u r h)) 0) ((((cfg0.win 4).blk t).view.emb (ix3 u r h)) 2) i) := by
  obtain ⟨e00, e01, e02, e10, e11, e12, e20, e21, e22, e30, e31, e32, e42⟩ := idx_facts t
  have hu : u.val = 0 := by omega
  show V m c main_v40 (((cfg0.win 3).blk t).view.emb (ix3 (0 : Fin 1) h i)) = V m c main_v40 _
  refine congrArg (V m c main_v40) (funext fun a => Fin.ext ?_)
  match a with
  | ⟨0, _⟩ => show win0_3.index t (0 : Fin 3) * 1 + 1 * 0 = win0_4.index t (0 : Fin 3) * 1 + 1 * u.val; omega
  | ⟨1, _⟩ => show win0_3.index t (1 : Fin 3) * 2816 + 1 * h.val = win0_4.index t (2 : Fin 3) * 2816 + 1 * h.val; omega
  | ⟨2, _⟩ => show win0_3.index t (2 : Fin 3) * 704 + 1 * i.val = i.val; omega

/-- What point t writes back is block t of G. -/
theorem flushed_eq (c : Dev nD) (t : Fin cfg0.N) :
    (dats m 0 c).flushed 4 t = ((cfg0.win 4).blk t).view.read (Elt Ideal) (G m c) := by
  rw [flushed_pay]
  funext j
  obtain ⟨u, r, h, rfl⟩ : ∃ (u : Fin 1) (r : Fin 320) (h : Fin 2816), j = ix3 u r h := ⟨j 0, j 1, j 2, eq_ix3 j⟩
  show k0_pay1 (iblk m c 0 t) (iblk m c 1 t) (iblk m c 2 t) (iblk m c 3 t) (ix3 u r h)
    = G m c (((cfg0.win 4).blk t).view.emb (ix3 u r h))
  refine (pay_apply (iblk m c 0 t) (iblk m c 1 t) (iblk m c 2 t) (iblk m c 3 t) u r h).trans ?_
  unfold G expertArr
  exact expertRow_congr (fun k => blk0 m c t u r h k) (fun i k => blk1 m c t u r h i k) (fun i k => blk2 m c t u r h i k)
    (fun i => blk3 m c t u r h i)

/-- An index of the array is in point t's block iff each coordinate is in the block's range on its axis. -/
theorem mem_blk (t : Fin cfg0.N) (i : S32x640x2816.Idx) :
    i ∈ ((cfg0.win 4).blk t).view.set ↔ ∀ a : Fin 3, win0_4.index t a * S1x320x2816.size a ≤ (i a).val
      ∧ (i a).val < win0_4.index t a * S1x320x2816.size a + S1x320x2816.size a := by
  show i ∈ ((View.whole main_v41).slice (win0_4.rect t)).set ↔ _
  rw [View.set_slice_whole, Rect.mem_set_unit]
  exact Iff.rfl

/-- Every index of the output array is in the block of the point of its expert and half. -/
theorem cover (i : S32x640x2816.Idx) :
    ∃ t : Fin cfg0.N, (cfg0.win 4).flush t = true ∧ i ∈ ((cfg0.win 4).blk t).view.set := by
  have hi0 : (i 0).val < 32 := (i 0).isLt
  have hi1 : (i 1).val < 640 := (i 1).isLt
  have hi2 : (i 2).val < 2816 := (i 2).isLt
  obtain ⟨t, ht⟩ := idx_onto ⟨(i 0).val, hi0⟩ ⟨(i 1).val / 320, by omega⟩
  have q0 : win0_4.index t (0 : Fin 3) = (i 0).val := congrFun ht 0
  have q1 : win0_4.index t (1 : Fin 3) = (i 1).val / 320 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 320 ≤ (i 1).val ∧ (i 1).val < win0_4.index t (1 : Fin 3) * 320 + 320; omega
  | ⟨2, _⟩ => show win0_4.index t (2 : Fin 3) * 2816 ≤ (i 2).val ∧ (i 2).val < win0_4.index t (2 : Fin 3) * 2816 + 2816; omega

/-- The output array after the region is G. -/
theorem final4 (c : Dev nD) : (dats m 0 c).arrAt 4 cfg0.N = G m c :=
  (dats m 0 c).arrAt_eq_of_cover 4 (G m c) (fun t _ => flushed_eq m c t) cover

end Cert.KernelIdeal.Arr

end
-- ==== Proof.RefOps.lean ====
import proofs.«105757_j30288109371940_1_alg».proof.Proof.Gen.ReferenceIdeal
import Idealize.ShloMosaic.Lib.StableHlo.Run

noncomputable section

namespace Cert.ReferenceIdeal.Hand

open Idealize.ShloMosaic Idealize.SL.Sem Cert.ReferenceIdeal Cert.ReferenceIdeal.Facts₀

variable {F : FTy → Type} [FloatOps F]

/-- The routing: flat expert indices, slot positions, validity mask, clamped positions, and the token rows with invalid pairs zeroed. (50 operations) -/
abbrev opsRoute : List (HloOp τ sig (Elt F)) :=
  [ StableHlo.reshape main_arg1 main_v0 rfl shapeCasts_S2048x8_S16384,
    StableHlo.unary main_v0 main_v1 (broadcastInDim S16384x1 ![0] bcast_S16384_S16384x1_0 : (⟨S16384, .i32⟩ : BufTy).Contents (Elt F) → (⟨S16384x1, .i32⟩ : BufTy).Contents (Elt F)),
    StableHlo.nullary main_v2 (iotaInDim S32 32 0),
    StableHlo.unary main_v2 main_v3 (broadcastInDim S1x32 ![1] bcast_S32_S1x32_1 : (⟨S32, .i32⟩ : BufTy).Contents (Elt F) → (⟨S1x32, .i32⟩ : BufTy).Contents (Elt F)),
    StableHlo.unary main_v1 main_v4 (broadcastInDim S16384x32 ![0, 1] bcast_S16384x1_S16384x32_0_1 : (⟨S16384x1, .i32⟩ : BufTy).Contents (Elt F) → (⟨S16384x32, .i32⟩ : BufTy).Contents (Elt F)),
    StableHlo.unary main_v3 main_v5 (broadcastInDim S16384x32 ![0, 1] bcast_S1x32_S16384x32_0_1 : (⟨S1x32, .i32⟩ : BufTy).Contents (Elt F) → (⟨S16384x32, .i32⟩ : BufTy).Contents (Elt F)),
    StableHlo.binary main_v4 main_v5 main_v6 (cmpi .eq : (⟨S16384x32, .i32⟩ : BufTy).Contents (Elt F) → (⟨S16384x32, .i32⟩ : BufTy).Contents (Elt F) → (⟨S16384x32, .i1⟩ : BufTy).Contents (Elt F)),
    StableHlo.unary main_v6 main_v7 ((extui 32 · natLt_1_32) : (⟨S16384x32, .i1⟩ : BufTy).Contents (Elt F) → (⟨S16384x32, .i32⟩ : BufTy).Contents (Elt F)),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v7 : StableHlo.TRef sig ⟨S16384x32, .i32⟩) (.of main_call0_call0_v0 : StableHlo.TRef sig ⟨S_, .i32⟩) (.of main_v8 : StableHlo.TRef sig ⟨S16384x32, .i32⟩) (fun x v => Host.reduceWindow IntOp.addi ![16384, 1] ![1, 1] ![16383, 0] ![0, 0] x v reduceWindows_S16384x32_S16384x32_w16384s1p16383_0_w1s1p0_0 h_S_),
    StableHlo.binary main_v8 main_v7 main_v9 (subi : (⟨S16384x32, .i32⟩ : BufTy).Contents (Elt F) → (⟨S16384x32, .i32⟩ : BufTy).Contents (Elt F) → (⟨S16384x32, .i32⟩ : BufTy).Contents (Elt F)),
    StableHlo.unary main_v0 main_v10 (broadcastInDim S16384x1 ![0] bcast_S16384_S16384x1_0 : (⟨S16384, .i32⟩ : BufTy).Contents (Elt F) → (⟨S16384x1, .i32⟩ : BufTy).Contents (Elt F)),
    StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S16384x1, .i32⟩) (broadcastInDim S16384x1 ![] bcast_S_S16384x1),
    StableHlo.TRef.binary (.of main_v10 : StableHlo.TRef sig ⟨S16384x1, .i32⟩) (.of main_call1_v0 : StableHlo.TRef sig ⟨S16384x1, .i32⟩) (.of main_call1_v1 : StableHlo.TRef sig ⟨S16384x1, .i1⟩) (cmpi .slt),
    StableHlo.TRef.nullary (.of main_call1_c_0 : StableHlo.TRef sig ⟨S_, .i32⟩) (constantI S_ 32 32#32),
    StableHlo.TRef.unary (.of main_call1_c_0 : StableHlo.TRef sig ⟨S_, .i32⟩) (.of main_call1_v2 : StableHlo.TRef sig ⟨S16384x1, .i32⟩) (broadcastInDim S16384x1 ![] bcast_S_S16384x1),
    StableHlo.TRef.binary (.of main_v10 : StableHlo.TRef sig ⟨S16384x1, .i32⟩) (.of main_call1_v2 : StableHlo.TRef sig ⟨S16384x1, .i32⟩) (.of main_call1_v3 : StableHlo.TRef sig ⟨S16384x1, .i32⟩) addi,
    StableHlo.TRef.ternary (.of main_call1_v1 : StableHlo.TRef sig ⟨S16384x1, .i1⟩) (.of main_call1_v3 : StableHlo.TRef sig ⟨S16384x1, .i32⟩) (.of main_v10 : StableHlo.TRef sig ⟨S16384x1, .i32⟩) (.of main_call1_v4 : StableHlo.TRef sig ⟨S16384x1, .i32⟩) select,
    StableHlo.TRef.reshape (.of main_call1_v4 : StableHlo.TRef sig ⟨S16384x1, .i32⟩) (.of main_call1_v5 : StableHlo.TRef sig ⟨S16384x1x1, .i32⟩) rfl shapeCasts_S16384x1_S16384x1x1,
    StableHlo.TRef.nullary (.of main_call1_c_1 : StableHlo.TRef sig ⟨S1, .i32⟩) (constantI S1 32 31#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S16384x1x1, .i32⟩) (broadcastInDim S16384x1x1 ![] bcast_S_S16384x1x1),
    StableHlo.TRef.binary (.of main_call1_v5 : StableHlo.TRef sig ⟨S16384x1x1, .i32⟩) (.of main_call1_v6 : StableHlo.TRef sig ⟨S16384x1x1, .i32⟩) (.of main_call1_v7 : StableHlo.TRef sig ⟨S16384x1x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S16384x1x1, .i32⟩) (broadcastInDim S16384x1x1 ![0, 1, 2] bcast_S1x1x1_S16384x1x1_0_1_2),
    StableHlo.TRef.binary (.of main_call1_v5 : StableHlo.TRef sig ⟨S16384x1x1, .i32⟩) (.of main_call1_v9 : StableHlo.TRef sig ⟨S16384x1x1, .i32⟩) (.of main_call1_v10 : StableHlo.TRef sig ⟨S16384x1x1, .i1⟩) (cmpi .sle),
    StableHlo.TRef.binary (.of main_call1_v7 : StableHlo.TRef sig ⟨S16384x1x1, .i1⟩) (.of main_call1_v10 : StableHlo.TRef sig ⟨S16384x1x1, .i1⟩) (.of main_call1_v11 : StableHlo.TRef sig ⟨S16384x1x1, .i1⟩) andi,
    StableHlo.TRef.nullary (.of main_call1_c_3 : StableHlo.TRef sig ⟨S_, .i1⟩) (constantI S_ 1 1#1),
    StableHlo.TRef.binary (.of main_call1_v11 : StableHlo.TRef sig ⟨S16384x1x1, .i1⟩) (.of main_call1_c_3 : StableHlo.TRef sig ⟨S_, .i1⟩) (.of main_call1_v12 : StableHlo.TRef sig ⟨S16384x1, .i1⟩) (fun x v => Host.reduce IntOp.andi x v reducesTo_S16384x1x1_S16384x1_d2 h_S_),
    StableHlo.TRef.binary (.of main_v9 : StableHlo.TRef sig ⟨S16384x32, .i32⟩) (.of main_call1_v5 : StableHlo.TRef sig ⟨S16384x1x1, .i32⟩) (.of main_call1_v13 : StableHlo.TRef sig ⟨S16384x1, .i32⟩) (fun x i => Host.gather gather_S16384x32_S16384x1x1_S16384x1_n_1_0_0_1_2_11 x i),
    StableHlo.TRef.nullary (.of main_call1_c_4 : StableHlo.TRef sig ⟨S_, .i32⟩) (constantI S_ 32 2147483648#32),
    StableHlo.TRef.unary (.of main_call1_c_4 : StableHlo.TRef sig ⟨S_, .i32⟩) (.of main_call1_v14 : StableHlo.TRef sig ⟨S16384x1, .i32⟩) (broadcastInDim S16384x1 ![] bcast_S_S16384x1),
    StableHlo.TRef.ternary (.of main_call1_v12 : StableHlo.TRef sig ⟨S16384x1, .i1⟩) (.of main_call1_v13 : StableHlo.TRef sig ⟨S16384x1, .i32⟩) (.of main_call1_v14 : StableHlo.TRef sig ⟨S16384x1, .i32⟩) (.of main_v11 : StableHlo.TRef sig ⟨S16384x1, .i32⟩) select,
    StableHlo.reshape main_v11 main_v12 rfl shapeCasts_S16384x1_S16384,
    StableHlo.nullary main_c (constantI S_ 32 640#32),
    StableHlo.unary main_c main_v13 (broadcastInDim S16384 ![] bcast_S_S16384 : (⟨S_, .i32⟩ : BufTy).Contents (Elt F) → (⟨S16384, .i32⟩ : BufTy).Contents (Elt F)),
    StableHlo.binary main_v12 main_v13 main_v14 (cmpi .slt : (⟨S16384, .i32⟩ : BufTy).Contents (Elt F) → (⟨S16384, .i32⟩ : BufTy).Contents (Elt F) → (⟨S16384, .i1⟩ : BufTy).Contents (Elt F)),
    StableHlo.nullary main_c_0 (constantI S_ 32 639#32),
    StableHlo.unary main_c_0 main_v15 (broadcastInDim S16384 ![] bcast_S_S16384 : (⟨S_, .i32⟩ : BufTy).Contents (Elt F) → (⟨S16384, .i32⟩ : BufTy).Contents (Elt F)),
    StableHlo.binary main_v12 main_v15 main_v16 (minsi : (⟨S16384, .i32⟩ : BufTy).Contents (Elt F) → (⟨S16384, .i32⟩ : BufTy).Contents (Elt F) → (⟨S16384, .i32⟩ : BufTy).Contents (Elt F)),
    StableHlo.unary main_arg0 main_v17 (broadcastInDim S2048x1x2816 ![0, 2] bcast_S2048x2816_S2048x1x2816_0_2 : (⟨S2048x2816, .f32⟩ : BufTy).Contents (Elt F) → (⟨S2048x1x2816, .f32⟩ : BufTy).Contents (Elt F)),
    StableHlo.unary main_v17 main_v18 (broadcastInDim S2048x8x2816 ![0, 1, 2] bcast_S2048x1x2816_S2048x8x2816_0_1_2 : (⟨S2048x1x2816, .f32⟩ : BufTy).Contents (Elt F) → (⟨S2048x8x2816, .f32⟩ : BufTy).Contents (Elt F)),
    StableHlo.reshape main_v18 main_v19 rfl shapeCasts_S2048x8x2816_S16384x2816,
    StableHlo.unary main_v14 main_v20 (broadcastInDim S16384x1 ![0] bcast_S16384_S16384x1_0 : (⟨S16384, .i1⟩ : BufTy).Contents (Elt F) → (⟨S16384x1, .i1⟩ : BufTy).Contents (Elt F)),
    StableHlo.nullary main_cst (constant S_ .f32 0x00000000#32),
    StableHlo.TRef.unary (.of main_v20 : StableHlo.TRef sig ⟨S16384x1, .i1⟩) (.of main_call2_v0 : StableHlo.TRef sig ⟨S16384x2816, .i1⟩) (broadcastInDim S16384x2816 ![0, 1] bcast_S16384x1_S16384x2816_0_1),
    StableHlo.TRef.unary (.of main_cst : StableHlo.TRef sig ⟨S_, .f32⟩) (.of main_call2_v1 : StableHlo.TRef sig ⟨S16384x2816, .f32⟩) (broadcastInDim S16384x2816 ![] bcast_S_S16384x2816),
    StableHlo.TRef.ternary (.of main_call2_v0 : StableHlo.TRef sig ⟨S16384x2816, .i1⟩) (.of main_v19 : StableHlo.TRef sig ⟨S16384x2816, .f32⟩) (.of main_call2_v1 : StableHlo.TRef sig ⟨S16384x2816, .f32⟩) (.of main_v21 : StableHlo.TRef sig ⟨S16384x2816, .f32⟩) select ]
theorem opsRoute_sub : (opsRoute : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.nullary_bufs_sub .., StableHlo.unary_bufs_sub .., StableHlo.unary_bufs_sub .., StableHlo.ternary_bufs_sub ..⟩

/-- The scatter: the (expert, slot) index pairs and the token rows added into the per-expert buffers. (20 operations) -/
abbrev opsScatter : List (HloOp τ sig (Elt F)) :=
  [ StableHlo.nullary main_cst_1 (constant S_ .f32 0x00000000#32),
    StableHlo.unary main_cst_1 main_v22 (broadcastInDim S32x640x2816 ![] bcast_S_S32x640x2816 : (⟨S_, .f32⟩ : BufTy).Contents (Elt F) → (⟨S32x640x2816, .f32⟩ : BufTy).Contents (Elt F)),
    StableHlo.nullary main_c_2 (constantI S_ 32 0#32),
    StableHlo.unary main_c_2 main_v23 (broadcastInDim S16384 ![] bcast_S_S16384 : (⟨S_, .i32⟩ : BufTy).Contents (Elt F) → (⟨S16384, .i32⟩ : BufTy).Contents (Elt F)),
    StableHlo.binary main_v0 main_v23 main_v24 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 32#32),
    StableHlo.unary main_c_3 main_v25 (broadcastInDim S16384 ![] bcast_S_S16384 : (⟨S_, .i32⟩ : BufTy).Contents (Elt F) → (⟨S16384, .i32⟩ : BufTy).Contents (Elt F)),
    StableHlo.binary main_v0 main_v25 main_v26 (addi : (⟨S16384, .i32⟩ : BufTy).Contents (Elt F) → (⟨S16384, .i32⟩ : BufTy).Contents (Elt F) → (⟨S16384, .i32⟩ : BufTy).Contents (Elt F)),
    StableHlo.ternary main_v24 main_v26 main_v0 main_v27 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_4 (constantI S_ 32 0#32),
    StableHlo.unary main_c_4 main_v28 (broadcastInDim S16384 ![] bcast_S_S16384 : (⟨S_, .i32⟩ : BufTy).Contents (Elt F) → (⟨S16384, .i32⟩ : BufTy).Contents (Elt F)),
    StableHlo.binary main_v16 main_v28 main_v29 (cmpi .slt : (⟨S16384, .i32⟩ : BufTy).Contents (Elt F) → (⟨S16384, .i32⟩ : BufTy).Contents (Elt F) → (⟨S16384, .i1⟩ : BufTy).Contents (Elt F)),
    StableHlo.nullary main_c_5 (constantI S_ 32 640#32),
    StableHlo.unary main_c_5 main_v30 (broadcastInDim S16384 ![] bcast_S_S16384 : (⟨S_, .i32⟩ : BufTy).Contents (Elt F) → (⟨S16384, .i32⟩ : BufTy).Contents (Elt F)),
    StableHlo.binary main_v16 main_v30 main_v31 (addi : (⟨S16384, .i32⟩ : BufTy).Contents (Elt F) → (⟨S16384, .i32⟩ : BufTy).Contents (Elt F) → (⟨S16384, .i32⟩ : BufTy).Contents (Elt F)),
    StableHlo.ternary main_v29 main_v31 main_v16 main_v32 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v27 main_v33 (broadcastInDim S16384x1 ![0] bcast_S16384_S16384x1_0 : (⟨S16384, .i32⟩ : BufTy).Contents (Elt F) → (⟨S16384x1, .i32⟩ : BufTy).Contents (Elt F)),
    StableHlo.unary main_v32 main_v34 (broadcastInDim S16384x1 ![0] bcast_S16384_S16384x1_0 : (⟨S16384, .i32⟩ : BufTy).Contents (Elt F) → (⟨S16384x1, .i32⟩ : BufTy).Contents (Elt F)),
    StableHlo.binary main_v33 main_v34 main_v35 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.ternary main_v22 main_v35 main_v21 main_v36 ((fun x i u => Host.scatterAdd scatter_S32x640x2816_S16384x2_S16384x2816_1_01_01_1 x i u) : (⟨S32x640x2816, .f32⟩ : BufTy).Contents (Elt F) → (⟨S16384x2, .i32⟩ : BufTy).Contents (Elt F) → (⟨S16384x2816, .f32⟩ : BufTy).Contents (Elt F) → (⟨S32x640x2816, .f32⟩ : BufTy).Contents (Elt F)) ]
theorem opsScatter_sub : (opsScatter : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub ..⟩

/-- The expert layers: two products, the gate, the third product. (21 operations) -/
abbrev opsExperts : List (HloOp τ sig (Elt F)) :=
  [ StableHlo.binary main_v36 main_arg3 main_v37 ((fun l r => Host.dotGeneral dot_S32x640x2816_S32x704x2816_S32x640x704_2_2_1_1_0_0 none l r) : (⟨S32x640x2816, .f32⟩ : BufTy).Contents (Elt F) → (⟨S32x704x2816, .f32⟩ : BufTy).Contents (Elt F) → (⟨S32x640x704, .f32⟩ : BufTy).Contents (Elt F)),
    StableHlo.binary main_v36 main_arg4 main_v38 ((fun l r => Host.dotGeneral dot_S32x640x2816_S32x704x2816_S32x640x704_2_2_1_1_0_0 none l r) : (⟨S32x640x2816, .f32⟩ : BufTy).Contents (Elt F) → (⟨S32x704x2816, .f32⟩ : BufTy).Contents (Elt F) → (⟨S32x640x704, .f32⟩ : BufTy).Contents (Elt F)),
    StableHlo.binary main_v37 main_v37 main_v39 (mulf : (⟨S32x640x704, .f32⟩ : BufTy).Contents (Elt F) → (⟨S32x640x704, .f32⟩ : BufTy).Contents (Elt F) → (⟨S32x640x704, .f32⟩ : BufTy).Contents (Elt F)),
    StableHlo.binary main_v39 main_v37 main_v40 (mulf : (⟨S32x640x704, .f32⟩ : BufTy).Contents (Elt F) → (⟨S32x640x704, .f32⟩ : BufTy).Contents (Elt F) → (⟨S32x640x704, .f32⟩ : BufTy).Contents (Elt F)),
    StableHlo.nullary main_cst_6 (constant S_ .f32 0x3D372713#32),
    StableHlo.unary main_cst_6 main_v41 (broadcastInDim S32x640x704 ![] bcast_S_S32x640x704 : (⟨S_, .f32⟩ : BufTy).Contents (Elt F) → (⟨S32x640x704, .f32⟩ : BufTy).Contents (Elt F)),
    StableHlo.binary main_v41 main_v40 main_v42 (mulf : (⟨S32x640x704, .f32⟩ : BufTy).Contents (Elt F) → (⟨S32x640x704, .f32⟩ : BufTy).Contents (Elt F) → (⟨S32x640x704, .f32⟩ : BufTy).Contents (Elt F)),
    StableHlo.binary main_v37 main_v42 main_v43 (addf : (⟨S32x640x704, .f32⟩ : BufTy).Contents (Elt F) → (⟨S32x640x704, .f32⟩ : BufTy).Contents (Elt F) → (⟨S32x640x704, .f32⟩ : BufTy).Contents (Elt F)),
    StableHlo.nullary main_cst_7 (constant S_ .f32 0x3F4C422A#32),
    StableHlo.unary main_cst_7 main_v44 (broadcastInDim S32x640x704 ![] bcast_S_S32x640x704 : (⟨S_, .f32⟩ : BufTy).Contents (Elt F) → (⟨S32x640x704, .f32⟩ : BufTy).Contents (Elt F)),
    StableHlo.binary main_v44 main_v43 main_v45 (mulf : (⟨S32x640x704, .f32⟩ : BufTy).Contents (Elt F) → (⟨S32x640x704, .f32⟩ : BufTy).Contents (Elt F) → (⟨S32x640x704, .f32⟩ : BufTy).Contents (Elt F)),
    StableHlo.unary main_v45 main_v46 (Host.tanh : (⟨S32x640x704, .f32⟩ : BufTy).Contents (Elt F) → (⟨S32x640x704, .f32⟩ : BufTy).Contents (Elt F)),
    StableHlo.nullary main_cst_8 (constant S_ .f32 0x3F800000#32),
    StableHlo.unary main_cst_8 main_v47 (broadcastInDim S32x640x704 ![] bcast_S_S32x640x704 : (⟨S_, .f32⟩ : BufTy).Contents (Elt F) → (⟨S32x640x704, .f32⟩ : BufTy).Contents (Elt F)),
    StableHlo.binary main_v47 main_v46 main_v48 (addf : (⟨S32x640x704, .f32⟩ : BufTy).Contents (Elt F) → (⟨S32x640x704, .f32⟩ : BufTy).Contents (Elt F) → (⟨S32x640x704, .f32⟩ : BufTy).Contents (Elt F)),
    StableHlo.nullary main_cst_9 (constant S_ .f32 0x3F000000#32),
    StableHlo.unary main_cst_9 main_v49 (broadcastInDim S32x640x704 ![] bcast_S_S32x640x704 : (⟨S_, .f32⟩ : BufTy).Contents (Elt F) → (⟨S32x640x704, .f32⟩ : BufTy).Contents (Elt F)),
    StableHlo.binary main_v49 main_v48 main_v50 (mulf : (⟨S32x640x704, .f32⟩ : BufTy).Contents (Elt F) → (⟨S32x640x704, .f32⟩ : BufTy).Contents (Elt F) → (⟨S32x640x704, .f32⟩ : BufTy).Contents (Elt F)),
    StableHlo.binary main_v37 main_v50 main_v51 (mulf : (⟨S32x640x704, .f32⟩ : BufTy).Contents (Elt F) → (⟨S32x640x704, .f32⟩ : BufTy).Contents (Elt F) → (⟨S32x640x704, .f32⟩ : BufTy).Contents (Elt F)),
    StableHlo.binary main_v51 main_v38 main_v52 (mulf : (⟨S32x640x704, .f32⟩ : BufTy).Contents (Elt F) → (⟨S32x640x704, .f32⟩ : BufTy).Contents (Elt F) → (⟨S32x640x704, .f32⟩ : BufTy).Contents (Elt F)),
    StableHlo.binary main_v52 main_arg5 main_v53 ((fun l r => Host.dotGeneral dot_S32x640x704_S32x2816x704_S32x640x2816_2_2_1_1_0_0 none l r) : (⟨S32x640x704, .f32⟩ : BufTy).Contents (Elt F) → (⟨S32x2816x704, .f32⟩ : BufTy).Contents (Elt F) → (⟨S32x640x2816, .f32⟩ : BufTy).Contents (Elt F)) ]
theorem opsExperts_sub : (opsExperts : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub ..⟩

/-- The combine: rows gathered back, masked, weighted and summed. (29 operations) -/
abbrev opsCombine : List (HloOp τ sig (Elt F)) :=
  [ StableHlo.nullary main_c_10 (constantI S_ 32 0#32),
    StableHlo.unary main_c_10 main_v54 (broadcastInDim S16384 ![] bcast_S_S16384 : (⟨S_, .i32⟩ : BufTy).Contents (Elt F) → (⟨S16384, .i32⟩ : BufTy).Contents (Elt F)),
    StableHlo.binary main_v0 main_v54 main_v55 (cmpi .slt : (⟨S16384, .i32⟩ : BufTy).Contents (Elt F) → (⟨S16384, .i32⟩ : BufTy).Contents (Elt F) → (⟨S16384, .i1⟩ : BufTy).Contents (Elt F)),
    StableHlo.nullary main_c_11 (constantI S_ 32 32#32),
    StableHlo.unary main_c_11 main_v56 (broadcastInDim S16384 ![] bcast_S_S16384 : (⟨S_, .i32⟩ : BufTy).Contents (Elt F) → (⟨S16384, .i32⟩ : BufTy).Contents (Elt F)),
    StableHlo.binary main_v0 main_v56 main_v57 (addi : (⟨S16384, .i32⟩ : BufTy).Contents (Elt F) → (⟨S16384, .i32⟩ : BufTy).Contents (Elt F) → (⟨S16384, .i32⟩ : BufTy).Contents (Elt F)),
    StableHlo.ternary main_v55 main_v57 main_v0 main_v58 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_12 (constantI S_ 32 0#32),
    StableHlo.unary main_c_12 main_v59 (broadcastInDim S16384 ![] bcast_S_S16384 : (⟨S_, .i32⟩ : BufTy).Contents (Elt F) → (⟨S16384, .i32⟩ : BufTy).Contents (Elt F)),
    StableHlo.binary main_v16 main_v59 main_v60 (cmpi .slt : (⟨S16384, .i32⟩ : BufTy).Contents (Elt F) → (⟨S16384, .i32⟩ : BufTy).Contents (Elt F) → (⟨S16384, .i1⟩ : BufTy).Contents (Elt F)),
    StableHlo.nullary main_c_13 (constantI S_ 32 640#32),
    StableHlo.unary main_c_13 main_v61 (broadcastInDim S16384 ![] bcast_S_S16384 : (⟨S_, .i32⟩ : BufTy).Contents (Elt F) → (⟨S16384, .i32⟩ : BufTy).Contents (Elt F)),
    StableHlo.binary main_v16 main_v61 main_v62 (addi : (⟨S16384, .i32⟩ : BufTy).Contents (Elt F) → (⟨S16384, .i32⟩ : BufTy).Contents (Elt F) → (⟨S16384, .i32⟩ : BufTy).Contents (Elt F)),
    StableHlo.ternary main_v60 main_v62 main_v16 main_v63 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v58 main_v64 (broadcastInDim S16384x1 ![0] bcast_S16384_S16384x1_0 : (⟨S16384, .i32⟩ : BufTy).Contents (Elt F) → (⟨S16384x1, .i32⟩ : BufTy).Contents (Elt F)),
    StableHlo.unary main_v63 main_v65 (broadcastInDim S16384x1 ![0] bcast_S16384_S16384x1_0 : (⟨S16384, .i32⟩ : BufTy).Contents (Elt F) → (⟨S16384x1, .i32⟩ : BufTy).Contents (Elt F)),
    StableHlo.binary main_v64 main_v65 main_v66 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_v53 main_v66 main_v67 ((fun x i => Host.gather gather_S32x640x2816_S16384x2_S16384x2816_1_01_n_n_01_1_112816 x i) : (⟨S32x640x2816, .f32⟩ : BufTy).Contents (Elt F) → (⟨S16384x2, .i32⟩ : BufTy).Contents (Elt F) → (⟨S16384x2816, .f32⟩ : BufTy).Contents (Elt F)),
    StableHlo.unary main_v14 main_v68 (broadcastInDim S16384x1 ![0] bcast_S16384_S16384x1_0 : (⟨S16384, .i1⟩ : BufTy).Contents (Elt F) → (⟨S16384x1, .i1⟩ : BufTy).Contents (Elt F)),
    StableHlo.nullary main_cst_14 (constant S_ .f32 0x00000000#32),
    StableHlo.TRef.unary (.of main_v68 : StableHlo.TRef sig ⟨S16384x1, .i1⟩) (.of main_call3_v0 : StableHlo.TRef sig ⟨S16384x2816, .i1⟩) (broadcastInDim S16384x2816 ![0, 1] bcast_S16384x1_S16384x2816_0_1),
    StableHlo.TRef.unary (.of main_cst_14 : StableHlo.TRef sig ⟨S_, .f32⟩) (.of main_call3_v1 : StableHlo.TRef sig ⟨S16384x2816, .f32⟩) (broadcastInDim S16384x2816 ![] bcast_S_S16384x2816),
    StableHlo.TRef.ternary (.of main_call3_v0 : StableHlo.TRef sig ⟨S16384x2816, .i1⟩) (.of main_v67 : StableHlo.TRef sig ⟨S16384x2816, .f32⟩) (.of main_call3_v1 : StableHlo.TRef sig ⟨S16384x2816, .f32⟩) (.of main_v69 : StableHlo.TRef sig ⟨S16384x2816, .f32⟩) select,
    StableHlo.reshape main_v69 main_v70 rfl shapeCasts_S16384x2816_S2048x8x2816,
    StableHlo.unary main_arg2 main_v71 (broadcastInDim S2048x8x1 ![0, 1] bcast_S2048x8_S2048x8x1_0_1 : (⟨S2048x8, .f32⟩ : BufTy).Contents (Elt F) → (⟨S2048x8x1, .f32⟩ : BufTy).Contents (Elt F)),
    StableHlo.unary main_v71 main_v72 (broadcastInDim S2048x8x2816 ![0, 1, 2] bcast_S2048x8x1_S2048x8x2816_0_1_2 : (⟨S2048x8x1, .f32⟩ : BufTy).Contents (Elt F) → (⟨S2048x8x2816, .f32⟩ : BufTy).Contents (Elt F)),
    StableHlo.binary main_v70 main_v72 main_v73 (mulf : (⟨S2048x8x2816, .f32⟩ : BufTy).Contents (Elt F) → (⟨S2048x8x2816, .f32⟩ : BufTy).Contents (Elt F) → (⟨S2048x8x2816, .f32⟩ : BufTy).Contents (Elt F)),
    StableHlo.nullary main_cst_15 (constant S_ .f32 0x00000000#32),
    StableHlo.binary main_v73 main_cst_15 main_v74 ((fun x v => Host.reduceAdd x v reducesTo_S2048x8x2816_S2048x2816_d1 h_S_) : (⟨S2048x8x2816, .f32⟩ : BufTy).Contents (Elt F) → (⟨S_, .f32⟩ : BufTy).Contents (Elt F) → (⟨S2048x2816, .f32⟩ : BufTy).Contents (Elt F)) ]
theorem opsCombine_sub : (opsCombine : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.ternary_bufs_sub .., StableHlo.reshape_bufs_sub .., StableHlo.unary_bufs_sub .., StableHlo.unary_bufs_sub .., StableHlo.binary_bufs_sub .., StableHlo.nullary_bufs_sub .., StableHlo.binary_bufs_sub ..⟩

end Cert.ReferenceIdeal.Hand

end
-- ==== Proof.RefRun.lean ====
/-
  The reference program's run, read as a fold of its host operations.

  @main, with the functions it calls opened at their call sites, is one straight line of 120 operations:
  the routing, the scatter, the expert layers, the combine. From any memory every execution terminates and each buffer
  ends at the fold of the operations over the launch contents; the fold of the whole line is the fold of
  the combine over the fold of the expert layers over the fold of the scatter over the fold of the routing.
-/
import proofs.«105757_j30288109371940_1_alg».proof.Proof.RefOps
import Idealize.ShloMosaic.Lib.Pipeline.Frame

noncomputable section

namespace Cert.ReferenceIdeal.Hand

open Idealize.ShloMosaic Idealize.ShloMosaic.StableHlo Idealize.ShloMosaic.Pipeline Idealize.SL.Sem Cert.ReferenceIdeal

variable {F : FTy → Type} [FloatOps F]

/-- The whole line. -/
abbrev ops : List (HloOp τ sig (Elt F)) := opsRoute ++ (opsScatter ++ (opsExperts ++ opsCombine))

/-- @main is that line: its two halves and the called functions unfold to the same chain of steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem opsRoute_fresh : (opsRoute : List (HloOp τ sig (Elt F))).Forall fun op => op.fresh = ∅ := by
  simp only [List.Forall]; repeat' constructor
theorem opsScatter_fresh : (opsScatter : List (HloOp τ sig (Elt F))).Forall fun op => op.fresh = ∅ := by
  simp only [List.Forall]; repeat' constructor
theorem opsExperts_fresh : (opsExperts : List (HloOp τ sig (Elt F))).Forall fun op => op.fresh = ∅ := by
  simp only [List.Forall]; repeat' constructor
theorem opsCombine_fresh : (opsCombine : List (HloOp τ sig (Elt F))).Forall fun op => op.fresh = ∅ := by
  simp only [List.Forall]; repeat' constructor

/-- A property of every operation of the four lists holds of every operation of the line. -/
theorem forall_ops {p : HloOp τ sig (Elt F) → Prop} (h0 : (opsRoute : List (HloOp τ sig (Elt F))).Forall p)
    (h1 : (opsScatter : List (HloOp τ sig (Elt F))).Forall p)
    (h2 : (opsExperts : List (HloOp τ sig (Elt F))).Forall p) (h3 : (opsCombine : List (HloOp τ sig (Elt F))).Forall p) :
    ∀ op ∈ (ops : List (HloOp τ sig (Elt F))), p op := fun op h => by
  rcases List.mem_append.mp h with h | h
  · exact List.forall_iff_forall_mem.mp h0 op h
  · rcases List.mem_append.mp h with h | h
    · exact List.forall_iff_forall_mem.mp h1 op h
    · rcases List.mem_append.mp h with h | h
      · exact List.forall_iff_forall_mem.mp h2 op h
      · exact List.forall_iff_forall_mem.mp h3 op h

/-- Every execution of the reference terminates, each buffer at the fold of the line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq
    (fun _ => List.forall_iff_forall_mem.mpr (forall_ops opsRoute_sub opsScatter_sub opsExperts_sub opsCombine_sub)) m ρ
    (fun _ => forall_ops opsRoute_fresh opsScatter_fresh opsExperts_fresh opsCombine_fresh)

/-- The fold of the line, stage by stage. -/
theorem after_ops (V : Valuation τ sig (Elt F)) :
    after ops V = after opsCombine (after opsExperts (after opsScatter (after opsRoute V))) := by
  show after (opsRoute ++ (opsScatter ++ (opsExperts ++ opsCombine))) V = _
  rw [StableHlo.after_append, StableHlo.after_append, StableHlo.after_append]

end Cert.ReferenceIdeal.Hand

end
-- ==== Proof.RefKeep.lean ====
/-
  Buffers the reference's stages leave alone.

  No operation of the reference writes an argument array, so each argument ends as launched; the expert layers write
  neither the flat expert index, the clamped position, the validity mask nor the routing weights, which the combine
  reads after them; the routing and the scatter write none of the routing weights and the three weight arrays, and the scatter none
  of the three routing values the combine reads. Each fact is read off
  the list of the result buffers of the operations concerned: the buffer in question is not among them.
-/
import proofs.«105757_j30288109371940_1_alg».proof.Proof.RefRun

set_option maxRecDepth 16384

noncomputable section

namespace Cert.ReferenceIdeal.Hand

open Idealize.ShloMosaic Idealize.ShloMosaic.StableHlo Idealize.SL.Sem Cert.ReferenceIdeal

variable {F : FTy → Type} [FloatOps F]

/-- The buffer read is the result buffer of no operation of the list. -/
local macro "keeps" : tactic => `(tactic| (
  refine after_of_forall_not_mem _ _ (List.forall_iff_forall_mem.mp ?_)
  simp only [ops, opsRoute, opsScatter, opsExperts, opsCombine, List.cons_append, List.nil_append, List.Forall, nullary_writes, unary_writes,
    binary_writes, ternary_writes, quaternary_writes, reshape_writes, binaryIndexed_writes, Finset.mem_singleton]
  repeat' apply And.intro
  all_goals exact devRef_ne_of_ne (by decide)))

theorem ops_keep_arg0 (V : Valuation τ sig (Elt F)) :
    after (ops : List (HloOp τ sig (Elt F))) V (Proc.devRef .tc main_arg0) = V (Proc.devRef .tc main_arg0) := by keeps
theorem ops_keep_arg1 (V : Valuation τ sig (Elt F)) :
    after (ops : List (HloOp τ sig (Elt F))) V (Proc.devRef .tc main_arg1) = V (Proc.devRef .tc main_arg1) := by keeps
theorem ops_keep_arg2 (V : Valuation τ sig (Elt F)) :
    after (ops : List (HloOp τ sig (Elt F))) V (Proc.devRef .tc main_arg2) = V (Proc.devRef .tc main_arg2) := by keeps
theorem ops_keep_arg3 (V : Valuation τ sig (Elt F)) :
    after (ops : List (HloOp τ sig (Elt F))) V (Proc.devRef .tc main_arg3) = V (Proc.devRef .tc main_arg3) := by keeps
theorem ops_keep_arg4 (V : Valuation τ sig (Elt F)) :
    after (ops : List (HloOp τ sig (Elt F))) V (Proc.devRef .tc main_arg4) = V (Proc.devRef .tc main_arg4) := by keeps
theorem ops_keep_arg5 (V : Valuation τ sig (Elt F)) :
    after (ops : List (HloOp τ sig (Elt F))) V (Proc.devRef .tc main_arg5) = V (Proc.devRef .tc main_arg5) := by keeps
theorem route_keep_arg2 (V : Valuation τ sig (Elt F)) :
    after (opsRoute : List (HloOp τ sig (Elt F))) V (Proc.devRef .tc main_arg2) = V (Proc.devRef .tc main_arg2) := by keeps
theorem scatter_keep_arg2 (V : Valuation τ sig (Elt F)) :
    after (opsScatter : List (HloOp τ sig (Elt F))) V (Proc.devRef .tc main_arg2) = V (Proc.devRef .tc main_arg2) := by keeps
theorem route_keep_arg3 (V : Valuation τ sig (Elt F)) :
    after (opsRoute : List (HloOp τ sig (Elt F))) V (Proc.devRef .tc main_arg3) = V (Proc.devRef .tc main_arg3) := by keeps
theorem scatter_keep_arg3 (V : Valuation τ sig (Elt F)) :
    after (opsScatter : List (HloOp τ sig (Elt F))) V (Proc.devRef .tc main_arg3) = V (Proc.devRef .tc main_arg3) := by keeps
theorem route_keep_arg4 (V : Valuation τ sig (Elt F)) :
    after (opsRoute : List (HloOp τ sig (Elt F))) V (Proc.devRef .tc main_arg4) = V (Proc.devRef .tc main_arg4) := by keeps
theorem scatter_keep_arg4 (V : Valuation τ sig (Elt F)) :
    after (opsScatter : List (HloOp τ sig (Elt F))) V (Proc.devRef .tc main_arg4) = V (Proc.devRef .tc main_arg4) := by keeps
theorem route_keep_arg5 (V : Valuation τ sig (Elt F)) :
    after (opsRoute : List (HloOp τ sig (Elt F))) V (Proc.devRef .tc main_arg5) = V (Proc.devRef .tc main_arg5) := by keeps
theorem scatter_keep_arg5 (V : Valuation τ sig (Elt F)) :
    after (opsScatter : List (HloOp τ sig (Elt F))) V (Proc.devRef .tc main_arg5) = V (Proc.devRef .tc main_arg5) := by keeps
theorem scatter_keep_flat (V : Valuation τ sig (Elt F)) :
    after (opsScatter : List (HloOp τ sig (Elt F))) V (Proc.devRef .tc main_v0) = V (Proc.devRef .tc main_v0) := by keeps
theorem scatter_keep_pos (V : Valuation τ sig (Elt F)) :
    after (opsScatter : List (HloOp τ sig (Elt F))) V (Proc.devRef .tc main_v16) = V (Proc.devRef .tc main_v16) := by keeps
theorem scatter_keep_valid (V : Valuation τ sig (Elt F)) :
    after (opsScatter : List (HloOp τ sig (Elt F))) V (Proc.devRef .tc main_v14) = V (Proc.devRef .tc main_v14) := by keeps
theorem experts_keep_flat (V : Valuation τ sig (Elt F)) :
    after (opsExperts : List (HloOp τ sig (Elt F))) V (Proc.devRef .tc main_v0) = V (Proc.devRef .tc main_v0) := by keeps
theorem experts_keep_pos (V : Valuation τ sig (Elt F)) :
    after (opsExperts : List (HloOp τ sig (Elt F))) V (Proc.devRef .tc main_v16) = V (Proc.devRef .tc main_v16) := by keeps
theorem experts_keep_valid (V : Valuation τ sig (Elt F)) :
    after (opsExperts : List (HloOp τ sig (Elt F))) V (Proc.devRef .tc main_v14) = V (Proc.devRef .tc main_v14) := by keeps
theorem experts_keep_arg2 (V : Valuation τ sig (Elt F)) :
    after (opsExperts : List (HloOp τ sig (Elt F))) V (Proc.devRef .tc main_arg2) = V (Proc.devRef .tc main_arg2) := by keeps

end Cert.ReferenceIdeal.Hand

end
-- ==== Proof.RefExperts.lean ====
/-
  The reference's expert layers, entry by entry.

  From the dispatched token buffer X [E, C, H] and the weights the reference forms g = X · Wgᵀ and u = X · Wuᵀ
  expert by expert (a product with batch axis 0, contracting the last axis of both operands), applies the gate
  entrywise with the cube written (g · g) · g, and multiplies by Wdᵀ in the same way. Entry (e, r, h) of the
  result is therefore the expert's layers on row (e, r) of X against row (e, h) of Wd.
-/
import proofs.«105757_j30288109371940_1_alg».proof.Proof.RefOps
import proofs.«105757_j30288109371940_1_alg».proof.Proof.Spec

noncomputable section

namespace Cert.ReferenceIdeal.Hand

open Idealize.ShloMosaic Idealize.ShloMosaic.StableHlo Idealize.ShloMosaic.ValueIdx Idealize.SL.Sem Cert.ReferenceIdeal
  Cert.ReferenceIdeal.Facts₀ Cert.Moe

/-- The dimension numbers of the first two products: batch axis 0, axis 2 of both operands contracted. -/
abbrev E1 : DotDims S32x640x2816 S32x704x2816 S32x640x704 := dot_S32x640x2816_S32x704x2816_S32x640x704_2_2_1_1_0_0
/-- The dimension numbers of the third product: batch axis 0, axis 2 of both operands contracted. -/
abbrev E2 : DotDims S32x640x704 S32x2816x704 S32x640x2816 := dot_S32x640x704_S32x2816x704_S32x640x2816_2_2_1_1_0_0

theorem e1_lhs0 (j : S32x640x704.Idx) (q : E1.contr.Idx) : (E1.lhsIdx j q 0 : ℕ) = j 0 := by
  simp [DotDims.lhsIdx, E1, dot_S32x640x2816_S32x704x2816_S32x640x704_2_2_1_1_0_0]; rfl
theorem e1_lhs1 (j : S32x640x704.Idx) (q : E1.contr.Idx) : (E1.lhsIdx j q 1 : ℕ) = j 1 := by
  simp [DotDims.lhsIdx, E1, dot_S32x640x2816_S32x704x2816_S32x640x704_2_2_1_1_0_0]; rfl
theorem e1_lhs2 (j : S32x640x704.Idx) (q : E1.contr.Idx) : (E1.lhsIdx j q 2 : ℕ) = q ⟨0, by decide⟩ := by
  simp [DotDims.lhsIdx, E1, dot_S32x640x2816_S32x704x2816_S32x640x704_2_2_1_1_0_0]; rfl
theorem e1_rhs0 (j : S32x640x704.Idx) (q : E1.contr.Idx) : (E1.rhsIdx j q 0 : ℕ) = j 0 := by
  simp [DotDims.rhsIdx, E1, dot_S32x640x2816_S32x704x2816_S32x640x704_2_2_1_1_0_0]; rfl
theorem e1_rhs1 (j : S32x640x704.Idx) (q : E1.contr.Idx) : (E1.rhsIdx j q 1 : ℕ) = j 2 := by
  simp [DotDims.rhsIdx, E1, dot_S32x640x2816_S32x704x2816_S32x640x704_2_2_1_1_0_0]; rfl
theorem e1_rhs2 (j : S32x640x704.Idx) (q : E1.contr.Idx) : (E1.rhsIdx j q 2 : ℕ) = q ⟨0, by decide⟩ := by
  simp [DotDims.rhsIdx, E1, dot_S32x640x2816_S32x704x2816_S32x640x704_2_2_1_1_0_0]; rfl

theorem e2_lhs0 (j : S32x640x2816.Idx) (q : E2.contr.Idx) : (E2.lhsIdx j q 0 : ℕ) = j 0 := by
  simp [DotDims.lhsIdx, E2, dot_S32x640x704_S32x2816x704_S32x640x2816_2_2_1_1_0_0]; rfl
theorem e2_lhs1 (j : S32x640x2816.Idx) (q : E2.contr.Idx) : (E2.lhsIdx j q 1 : ℕ) = j 1 := by
  simp [DotDims.lhsIdx, E2, dot_S32x640x704_S32x2816x704_S32x640x2816_2_2_1_1_0_0]; rfl
theorem e2_lhs2 (j : S32x640x2816.Idx) (q : E2.contr.Idx) : (E2.lhsIdx j q 2 : ℕ) = q ⟨0, by decide⟩ := by
  simp [DotDims.lhsIdx, E2, dot_S32x640x704_S32x2816x704_S32x640x2816_2_2_1_1_0_0]; rfl
theorem e2_rhs0 (j : S32x640x2816.Idx) (q : E2.contr.Idx) : (E2.rhsIdx j q 0 : ℕ) = j 0 := by
  simp [DotDims.rhsIdx, E2, dot_S32x640x704_S32x2816x704_S32x640x2816_2_2_1_1_0_0]; rfl
theorem e2_rhs1 (j : S32x640x2816.Idx) (q : E2.contr.Idx) : (E2.rhsIdx j q 1 : ℕ) = j 2 := by
  simp [DotDims.rhsIdx, E2, dot_S32x640x704_S32x2816x704_S32x640x2816_2_2_1_1_0_0]; rfl
theorem e2_rhs2 (j : S32x640x2816.Idx) (q : E2.contr.Idx) : (E2.rhsIdx j q 2 : ℕ) = q ⟨0, by decide⟩ := by
  simp [DotDims.rhsIdx, E2, dot_S32x640x704_S32x2816x704_S32x640x2816_2_2_1_1_0_0]; rfl

/-- Entry (e, c, i) of the batched product l · wᵀ is ∑ₖ l(e,c,k) · w(e,i,k). -/
theorem dg1_apply (l : FVec Ideal S32x640x2816 .f32) (w : FVec Ideal S32x704x2816 .f32) (e : Fin 32) (c : Fin 640) (i : Fin 704) :
    Host.dotGeneral E1 none l w (ix3 e c i) = ∑ k : Fin 2816, l (ix3 e c k) * w (ix3 e i k) := by
  show FloatOps.dotGeneral E1 none .single l w (ix3 e c i) = _
  rw [Ideal.dotGeneral_apply, sum_contr1 E1 2816 rfl rfl]
  refine Finset.sum_congr rfl fun k _ => ?_
  have hk := contrEquiv1_symm_val E1 2816 rfl rfl k
  have el : E1.lhsIdx (ix3 e c i) ((contrEquiv1 E1 2816 rfl rfl).symm k) = ix3 e c k := funext fun a => Fin.ext (by
    match a with
    | ⟨0, _⟩ => exact e1_lhs0 _ _
    | ⟨1, _⟩ => exact e1_lhs1 _ _
    | ⟨2, _⟩ => exact (e1_lhs2 _ _).trans hk)
  have er : E1.rhsIdx (ix3 e c i) ((contrEquiv1 E1 2816 rfl rfl).symm k) = ix3 e i k := funext fun a => Fin.ext (by
    match a with
    | ⟨0, _⟩ => exact e1_rhs0 _ _
    | ⟨1, _⟩ => exact e1_rhs1 _ _
    | ⟨2, _⟩ => exact (e1_rhs2 _ _).trans hk)
  rw [el, er]

/-- Entry (e, c, h) of the batched product l · wᵀ is ∑ᵢ l(e,c,i) · w(e,h,i). -/
theorem dg2_apply (l : FVec Ideal S32x640x704 .f32) (w : FVec Ideal S32x2816x704 .f32) (e : Fin 32) (c : Fin 640) (h : Fin 2816) :
    Host.dotGeneral E2 none l w (ix3 e c h) = ∑ i : Fin 704, l (ix3 e c i) * w (ix3 e h i) := by
  show FloatOps.dotGeneral E2 none .single l w (ix3 e c h) = _
  rw [Ideal.dotGeneral_apply, sum_contr1 E2 704 rfl rfl]
  refine Finset.sum_congr rfl fun k _ => ?_
  have hk := contrEquiv1_symm_val E2 704 rfl rfl k
  have el : E2.lhsIdx (ix3 e c h) ((contrEquiv1 E2 704 rfl rfl).symm k) = ix3 e c k := funext fun a => Fin.ext (by
    match a with
    | ⟨0, _⟩ => exact e2_lhs0 _ _
    | ⟨1, _⟩ => exact e2_lhs1 _ _
    | ⟨2, _⟩ => exact (e2_lhs2 _ _).trans hk)
  have er : E2.rhsIdx (ix3 e c h) ((contrEquiv1 E2 704 rfl rfl).symm k) = ix3 e h k := funext fun a => Fin.ext (by
    match a with
    | ⟨0, _⟩ => exact e2_rhs0 _ _
    | ⟨1, _⟩ => exact e2_rhs1 _ _
    | ⟨2, _⟩ => exact (e2_rhs2 _ _).trans hk)
  rw [el, er]

/-- The reference's entrywise arithmetic between the products is the gate at each entry. -/
theorem gate_vec (g u : FVec Ideal S32x640x704 .f32) (j : S32x640x704.Idx) :
    mulf (mulf g (mulf (broadcastInDim S32x640x704 ![] bcast_S_S32x640x704 (constant (F := Ideal) S_ .f32 0x3F000000#32))
      (addf (broadcastInDim S32x640x704 ![] bcast_S_S32x640x704 (constant (F := Ideal) S_ .f32 0x3F800000#32))
        (Host.tanh (mulf (broadcastInDim S32x640x704 ![] bcast_S_S32x640x704 (constant (F := Ideal) S_ .f32 0x3F4C422A#32))
          (addf g (mulf (broadcastInDim S32x640x704 ![] bcast_S_S32x640x704 (constant (F := Ideal) S_ .f32 0x3D372713#32))
            (mulf (mulf g g) g)))))))) u j
      = gate (g j) (u j) := by
  simp only [mulf, addf, Host.tanh, broadcastInDim, constant, Ideal.mulf_def, Ideal.addf_def, Ideal.hostUnary_tanh_def,
    Ideal.ofBits_def]
  exact gate_cube_comm (g j) (u j)

set_option maxHeartbeats 1000000 in
/-- Entry (e, r, h) of the expert layers' result, from any contents W of the buffers they read. -/
theorem experts_apply (W : Valuation τ sig (Elt Ideal)) (e : Fin 32) (r : Fin 640) (h : Fin 2816) :
    after opsExperts W (Proc.devRef .tc main_v53) (ix3 e r h)
      = expertArr (W (Proc.devRef .tc main_v36)) (W (Proc.devRef .tc main_arg3)) (W (Proc.devRef .tc main_arg4))
          (W (Proc.devRef .tc main_arg5)) e r h := by
  simp only [opsExperts]
  after_results_simp
  refine (dg2_apply _ _ e r h).trans ?_
  unfold expertArr expertRow
  refine Finset.sum_congr rfl fun i _ => ?_
  rw [gate_vec, dg1_apply, dg1_apply]

end Cert.ReferenceIdeal.Hand

end
-- ==== Proof.LibCat2.lean ====
/-
  Two arrays joined along an axis, as a function of the two arrays.

  The programs write the join of two arrays as an operation on a list of (shape, array) pairs, under a shape fact
  stated of that list; cat2 is the same join with the two arrays as plain arguments, so that an equation between the
  joined arrays follows from equations between the parts (a rewriting pass can then reach the two operands, which it
  cannot do through the list). Generic in the shapes, the axis and the element type.
-/
import Idealize.ShloMosaic.PureOps.Ideal.Laws

namespace Cert.LibCat2

open Idealize.ShloMosaic

/-- The join of p (shape s1) and q (shape s2) along axis a of the result shape t. -/
def cat2 {α : Type} (t : Shape) (a : Fin t.rank) (s1 s2 : Shape) (h : Shape.Concatenates [s1, s2] t a)
    (p : s1.Idx → α) (q : s2.Idx → α) : t.Idx → α :=
  concatenate t a [⟨s1, p⟩, ⟨s2, q⟩] h

/-- The join written on the list of pairs is cat2 of the two arrays. -/
theorem cat2_fun {α : Type} (t : Shape) (a : Fin t.rank) (s1 s2 : Shape) (h : Shape.Concatenates [s1, s2] t a) :
    (fun (p : s1.Idx → α) (q : s2.Idx → α) => concatenate t a [⟨s1, p⟩, ⟨s2, q⟩] h) = cat2 t a s1 s2 h := rfl

end Cert.LibCat2
-- ==== Proof.Dispatch.lean ====
/-
  The dispatch is the same computation in both programs.

  Before the expert layers both programs compute, by the same host operations in the same order, the flat expert
  index of every (token, choice) pair, its slot position in its expert (an exclusive running count), the validity
  mask (position below the capacity), the position clamped into the buffer, the token rows with the rows of invalid
  pairs zeroed (the routing), and then those rows added into the per-expert buffers at (expert, slot) (the scatter).
  Each of these values is therefore the same function of the token array and the index array on both sides. The
  kernel's program then only rounds the buffer and the three weight arrays to bf16, which at the exact values
  changes nothing. The routing is compared first, the scatter from equal routing values after it.
-/
import proofs.«105757_j30288109371940_1_alg».proof.Proof.Gen.KernelIdeal.Launch
import proofs.«105757_j30288109371940_1_alg».proof.Proof.RefKeep
import proofs.«105757_j30288109371940_1_alg».proof.Proof.LibCat2

set_option maxRecDepth 16384

noncomputable section

namespace Cert.Moe.Dispatch

open Idealize.ShloMosaic Idealize.ShloMosaic.StableHlo Idealize.ShloMosaic.Pipeline Idealize.SL.Sem

local notation "preK" => (List.flatten [Cert.KernelIdeal.Gen.hostOps0 (F := Ideal), Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6])
local notation "routeK" => (List.flatten [Cert.KernelIdeal.Gen.hostOps0 (F := Ideal), Cert.KernelIdeal.Gen.hostOps0_1, Cert.KernelIdeal.Gen.hostOps0_2, Cert.KernelIdeal.Gen.hostOps0_3, Cert.KernelIdeal.Gen.hostOps0_4, Cert.KernelIdeal.Gen.hostOps0_5])
local notation "scatK" => (Cert.KernelIdeal.Gen.hostOps0_6 (F := Ideal))
local notation "routeR" => (Cert.ReferenceIdeal.Hand.opsRoute (F := Ideal))
local notation "scatR" => (Cert.ReferenceIdeal.Hand.opsScatter (F := Ideal))

/-- The kernel program's lines before the region: the routing, then the scatter and the roundings. -/
theorem preK_split : preK = routeK ++ scatK := by
  simp only [List.flatten_cons, List.flatten_nil, List.append_nil, List.append_assoc]

/-! ## The routing -/

/-- The flat expert index of every (token, choice) pair. -/
theorem route_flat (MK : Valuation Cert.KernelIdeal.τ Cert.KernelIdeal.sig (Elt Ideal)) (MR : Valuation Cert.ReferenceIdeal.τ Cert.ReferenceIdeal.sig (Elt Ideal))
    (h1 : MK (Proc.devRef .tc Cert.KernelIdeal.main_arg1) = MR (Proc.devRef .tc Cert.ReferenceIdeal.main_arg1)) :
    after routeK MK (Proc.devRef .tc Cert.KernelIdeal.main_v0) = after routeR MR (Proc.devRef .tc Cert.ReferenceIdeal.main_v0) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, List.flatten_cons, List.flatten_nil, List.append_nil, List.cons_append, List.nil_append, Cert.ReferenceIdeal.Hand.opsRoute]
  after_results_simp
  rw [h1]
  rfl

/-- The validity mask: the pair's slot position is below the capacity. -/
theorem route_valid (MK : Valuation Cert.KernelIdeal.τ Cert.KernelIdeal.sig (Elt Ideal)) (MR : Valuation Cert.ReferenceIdeal.τ Cert.ReferenceIdeal.sig (Elt Ideal))
    (h1 : MK (Proc.devRef .tc Cert.KernelIdeal.main_arg1) = MR (Proc.devRef .tc Cert.ReferenceIdeal.main_arg1)) :
    after routeK MK (Proc.devRef .tc Cert.KernelIdeal.main_v14) = after routeR MR (Proc.devRef .tc Cert.ReferenceIdeal.main_v14) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, List.flatten_cons, List.flatten_nil, List.append_nil, List.cons_append, List.nil_append, Cert.ReferenceIdeal.Hand.opsRoute]
  after_results_simp
  rw [h1]
  rfl

/-- The slot position clamped into the buffer. -/
theorem route_pos (MK : Valuation Cert.KernelIdeal.τ Cert.KernelIdeal.sig (Elt Ideal)) (MR : Valuation Cert.ReferenceIdeal.τ Cert.ReferenceIdeal.sig (Elt Ideal))
    (h1 : MK (Proc.devRef .tc Cert.KernelIdeal.main_arg1) = MR (Proc.devRef .tc Cert.ReferenceIdeal.main_arg1)) :
    after routeK MK (Proc.devRef .tc Cert.KernelIdeal.main_v16) = after routeR MR (Proc.devRef .tc Cert.ReferenceIdeal.main_v16) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, List.flatten_cons, List.flatten_nil, List.append_nil, List.cons_append, List.nil_append, Cert.ReferenceIdeal.Hand.opsRoute]
  after_results_simp
  rw [h1]
  rfl

/-- The token rows, one per (token, choice) pair, zeroed where the pair is invalid. -/
theorem route_tok (MK : Valuation Cert.KernelIdeal.τ Cert.KernelIdeal.sig (Elt Ideal)) (MR : Valuation Cert.ReferenceIdeal.τ Cert.ReferenceIdeal.sig (Elt Ideal))
    (h0 : MK (Proc.devRef .tc Cert.KernelIdeal.main_arg0) = MR (Proc.devRef .tc Cert.ReferenceIdeal.main_arg0)) (h1 : MK (Proc.devRef .tc Cert.KernelIdeal.main_arg1) = MR (Proc.devRef .tc Cert.ReferenceIdeal.main_arg1)) :
    after routeK MK (Proc.devRef .tc Cert.KernelIdeal.main_v21) = after routeR MR (Proc.devRef .tc Cert.ReferenceIdeal.main_v21) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, List.flatten_cons, List.flatten_nil, List.append_nil, List.cons_append, List.nil_append, Cert.ReferenceIdeal.Hand.opsRoute]
  after_results_simp
  rw [h0, h1]
  rfl

/-! ## The scatter -/

set_option maxHeartbeats 1600000 in
/-- From equal flat indices, clamped positions and masked token rows the two scatters fill equal buffers (the kernel's
    side then rounds the buffer to bf16: the identity at the exact values). -/
theorem scatter_buf (PK : Valuation Cert.KernelIdeal.τ Cert.KernelIdeal.sig (Elt Ideal)) (PR : Valuation Cert.ReferenceIdeal.τ Cert.ReferenceIdeal.sig (Elt Ideal))
    (hf : PK (Proc.devRef .tc Cert.KernelIdeal.main_v0) = PR (Proc.devRef .tc Cert.ReferenceIdeal.main_v0)) (hp : PK (Proc.devRef .tc Cert.KernelIdeal.main_v16) = PR (Proc.devRef .tc Cert.ReferenceIdeal.main_v16))
    (ht : PK (Proc.devRef .tc Cert.KernelIdeal.main_v21) = PR (Proc.devRef .tc Cert.ReferenceIdeal.main_v21)) :
    after scatK PK (Proc.devRef .tc Cert.KernelIdeal.main_v37) = after scatR PR (Proc.devRef .tc Cert.ReferenceIdeal.main_v36) := by
  simp only [Cert.KernelIdeal.Gen.hostOps0_6, Cert.ReferenceIdeal.Hand.opsScatter]
  simp only [Cert.LibCat2.cat2_fun]
  after_results_simp
  rw [hf, hp, ht]
  rfl

/-- The kernel program's scatter lines write none of the three routing values read after the region. -/
theorem scatK_keep_flat (P : Valuation Cert.KernelIdeal.τ Cert.KernelIdeal.sig (Elt Ideal)) : after scatK P (Proc.devRef .tc Cert.KernelIdeal.main_v0) = P (Proc.devRef .tc Cert.KernelIdeal.main_v0) := by
  refine after_of_forall_not_mem _ _ (List.forall_iff_forall_mem.mp ?_)
  simp only [Cert.KernelIdeal.Gen.hostOps0_6, List.Forall, nullary_writes, unary_writes, binary_writes, ternary_writes, quaternary_writes, reshape_writes,
    binaryIndexed_writes, Finset.mem_singleton]
  repeat' apply And.intro
  all_goals exact devRef_ne_of_ne (by decide)
theorem scatK_keep_pos (P : Valuation Cert.KernelIdeal.τ Cert.KernelIdeal.sig (Elt Ideal)) : after scatK P (Proc.devRef .tc Cert.KernelIdeal.main_v16) = P (Proc.devRef .tc Cert.KernelIdeal.main_v16) := by
  refine after_of_forall_not_mem _ _ (List.forall_iff_forall_mem.mp ?_)
  simp only [Cert.KernelIdeal.Gen.hostOps0_6, List.Forall, nullary_writes, unary_writes, binary_writes, ternary_writes, quaternary_writes, reshape_writes,
    binaryIndexed_writes, Finset.mem_singleton]
  repeat' apply And.intro
  all_goals exact devRef_ne_of_ne (by decide)
theorem scatK_keep_valid (P : Valuation Cert.KernelIdeal.τ Cert.KernelIdeal.sig (Elt Ideal)) : after scatK P (Proc.devRef .tc Cert.KernelIdeal.main_v14) = P (Proc.devRef .tc Cert.KernelIdeal.main_v14) := by
  refine after_of_forall_not_mem _ _ (List.forall_iff_forall_mem.mp ?_)
  simp only [Cert.KernelIdeal.Gen.hostOps0_6, List.Forall, nullary_writes, unary_writes, binary_writes, ternary_writes, quaternary_writes, reshape_writes,
    binaryIndexed_writes, Finset.mem_singleton]
  repeat' apply And.intro
  all_goals exact devRef_ne_of_ne (by decide)

/-! ## The whole of the lines before the expert layers -/

/-- The flat expert index, as the lines after the expert layers find it. -/
theorem flat_agree (MK : Valuation Cert.KernelIdeal.τ Cert.KernelIdeal.sig (Elt Ideal)) (MR : Valuation Cert.ReferenceIdeal.τ Cert.ReferenceIdeal.sig (Elt Ideal))
    (h1 : MK (Proc.devRef .tc Cert.KernelIdeal.main_arg1) = MR (Proc.devRef .tc Cert.ReferenceIdeal.main_arg1)) :
    after preK MK (Proc.devRef .tc Cert.KernelIdeal.main_v0) = after scatR (after routeR MR) (Proc.devRef .tc Cert.ReferenceIdeal.main_v0) := by
  rw [preK_split, StableHlo.after_append]
  exact (scatK_keep_flat _).trans ((route_flat MK MR h1).trans (Cert.ReferenceIdeal.Hand.scatter_keep_flat _).symm)

/-- The validity mask, as the lines after the expert layers find it. -/
theorem valid_agree (MK : Valuation Cert.KernelIdeal.τ Cert.KernelIdeal.sig (Elt Ideal)) (MR : Valuation Cert.ReferenceIdeal.τ Cert.ReferenceIdeal.sig (Elt Ideal))
    (h1 : MK (Proc.devRef .tc Cert.KernelIdeal.main_arg1) = MR (Proc.devRef .tc Cert.ReferenceIdeal.main_arg1)) :
    after preK MK (Proc.devRef .tc Cert.KernelIdeal.main_v14) = after scatR (after routeR MR) (Proc.devRef .tc Cert.ReferenceIdeal.main_v14) := by
  rw [preK_split, StableHlo.after_append]
  exact (scatK_keep_valid _).trans ((route_valid MK MR h1).trans (Cert.ReferenceIdeal.Hand.scatter_keep_valid _).symm)

/-- The clamped position, as the lines after the expert layers find it. -/
theorem pos_agree (MK : Valuation Cert.KernelIdeal.τ Cert.KernelIdeal.sig (Elt Ideal)) (MR : Valuation Cert.ReferenceIdeal.τ Cert.ReferenceIdeal.sig (Elt Ideal))
    (h1 : MK (Proc.devRef .tc Cert.KernelIdeal.main_arg1) = MR (Proc.devRef .tc Cert.ReferenceIdeal.main_arg1)) :
    after preK MK (Proc.devRef .tc Cert.KernelIdeal.main_v16) = after scatR (after routeR MR) (Proc.devRef .tc Cert.ReferenceIdeal.main_v16) := by
  rw [preK_split, StableHlo.after_append]
  exact (scatK_keep_pos _).trans ((route_pos MK MR h1).trans (Cert.ReferenceIdeal.Hand.scatter_keep_pos _).symm)

/-- The per-expert token buffers the expert layers read. -/
theorem buf_agree (MK : Valuation Cert.KernelIdeal.τ Cert.KernelIdeal.sig (Elt Ideal)) (MR : Valuation Cert.ReferenceIdeal.τ Cert.ReferenceIdeal.sig (Elt Ideal))
    (h0 : MK (Proc.devRef .tc Cert.KernelIdeal.main_arg0) = MR (Proc.devRef .tc Cert.ReferenceIdeal.main_arg0)) (h1 : MK (Proc.devRef .tc Cert.KernelIdeal.main_arg1) = MR (Proc.devRef .tc Cert.ReferenceIdeal.main_arg1)) :
    after preK MK (Proc.devRef .tc Cert.KernelIdeal.main_v37) = after scatR (after routeR MR) (Proc.devRef .tc Cert.ReferenceIdeal.main_v36) := by
  rw [preK_split, StableHlo.after_append]
  exact scatter_buf _ _ (route_flat MK MR h1) (route_pos MK MR h1) (route_tok MK MR h0 h1)

/-- The three weight arrays, rounded to bf16 on the kernel's side. -/
theorem wg_eq (MK : Valuation Cert.KernelIdeal.τ Cert.KernelIdeal.sig (Elt Ideal)) :
    after preK MK (Proc.devRef .tc Cert.KernelIdeal.main_v38)
      = (truncf .bf16 (MK (Proc.devRef .tc Cert.KernelIdeal.main_arg3) : FVec Ideal Cert.KernelIdeal.S32x704x2816 .f32) Cert.KernelIdeal.Gen.bitsLt_bf16_f32 : FVec Ideal Cert.KernelIdeal.S32x704x2816 .bf16) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, List.flatten_cons, List.flatten_nil, List.append_nil, List.cons_append, List.nil_append]
  after_results_simp
theorem wu_eq (MK : Valuation Cert.KernelIdeal.τ Cert.KernelIdeal.sig (Elt Ideal)) :
    after preK MK (Proc.devRef .tc Cert.KernelIdeal.main_v39)
      = (truncf .bf16 (MK (Proc.devRef .tc Cert.KernelIdeal.main_arg4) : FVec Ideal Cert.KernelIdeal.S32x704x2816 .f32) Cert.KernelIdeal.Gen.bitsLt_bf16_f32 : FVec Ideal Cert.KernelIdeal.S32x704x2816 .bf16) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, List.flatten_cons, List.flatten_nil, List.append_nil, List.cons_append, List.nil_append]
  after_results_simp
theorem wd_eq (MK : Valuation Cert.KernelIdeal.τ Cert.KernelIdeal.sig (Elt Ideal)) :
    after preK MK (Proc.devRef .tc Cert.KernelIdeal.main_v40)
      = (truncf .bf16 (MK (Proc.devRef .tc Cert.KernelIdeal.main_arg5) : FVec Ideal Cert.KernelIdeal.S32x2816x704 .f32) Cert.KernelIdeal.Gen.bitsLt_bf16_f32 : FVec Ideal Cert.KernelIdeal.S32x2816x704 .bf16) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, List.flatten_cons, List.flatten_nil, List.append_nil, List.cons_append, List.nil_append]
  after_results_simp

end Cert.Moe.Dispatch

end
-- ==== Proof.Combine.lean ====
/-
  The combine is the same computation in both programs.

  After the expert layers both programs, by the same host operations in the same order, gather for every
  (token, choice) pair the row of its expert at its slot, zero the rows of invalid pairs, weight each row by the
  pair's routing weight and sum over the choices. So from equal flat expert indices, clamped positions, validity
  masks, routing weights and expert outputs, the two results are equal; the shared chain is never opened.
-/
import proofs.«105757_j30288109371940_1_alg».proof.Proof.Gen.KernelIdeal.Launch
import proofs.«105757_j30288109371940_1_alg».proof.Proof.RefOps
import proofs.«105757_j30288109371940_1_alg».proof.Proof.LibCat2

set_option maxRecDepth 16384

noncomputable section

namespace Cert.Moe.Combine

open Idealize.ShloMosaic Idealize.ShloMosaic.StableHlo Idealize.SL.Sem

set_option maxHeartbeats 1000000 in
/-- The two programs' lines after the expert layers give equal results from equal inputs. -/
theorem combine_agree (XK : Valuation Cert.KernelIdeal.τ Cert.KernelIdeal.sig (Elt Ideal)) (XR : Valuation Cert.ReferenceIdeal.τ Cert.ReferenceIdeal.sig (Elt Ideal))
    (hf : XK (Proc.devRef .tc Cert.KernelIdeal.main_v0) = XR (Proc.devRef .tc Cert.ReferenceIdeal.main_v0))
    (hp : XK (Proc.devRef .tc Cert.KernelIdeal.main_v16) = XR (Proc.devRef .tc Cert.ReferenceIdeal.main_v16))
    (hv : XK (Proc.devRef .tc Cert.KernelIdeal.main_v14) = XR (Proc.devRef .tc Cert.ReferenceIdeal.main_v14))
    (hw : XK (Proc.devRef .tc Cert.KernelIdeal.main_arg2) = XR (Proc.devRef .tc Cert.ReferenceIdeal.main_arg2))
    (ho : XK (Proc.devRef .tc Cert.KernelIdeal.main_v41) = XR (Proc.devRef .tc Cert.ReferenceIdeal.main_v53)) :
    after (List.flatten [Cert.KernelIdeal.Gen.hostOps1 (F := Ideal), Cert.KernelIdeal.Gen.hostOps1_1, Cert.KernelIdeal.Gen.hostOps1_2]) XK (Proc.devRef .tc Cert.KernelIdeal.main_v62)
      = after (Cert.ReferenceIdeal.Hand.opsCombine (F := Ideal)) XR (Proc.devRef .tc Cert.ReferenceIdeal.main_v74) := by
  simp only [Cert.KernelIdeal.Gen.hostOps1, Cert.KernelIdeal.Gen.hostOps1_1, Cert.KernelIdeal.Gen.hostOps1_2, List.flatten_cons, List.flatten_nil, List.append_nil,
    List.cons_append, List.nil_append, Cert.ReferenceIdeal.Hand.opsCombine]
  simp only [Cert.LibCat2.cat2_fun]
  after_results_simp
  rw [hf, hp, hv, hw, ho]
  rfl

end Cert.Moe.Combine

end
-- ==== Proof.Bridge.lean ====
/-
  The two programs' results are one function of the arguments.

  The kernel's program: dispatch, the region (whose output array is the expert layers of the bf16-rounded buffer
  and weights, entry by entry), combine. The reference: dispatch, the expert layers as three batched products
  around the gate, combine. The dispatches (routing and scatter) agree value by value, rounding to bf16 is the identity at the exact
  values, both expert stages are the same sums entry by entry, and the combines agree from equal inputs.
-/
import proofs.«105757_j30288109371940_1_alg».proof.Proof.KernelArray
import proofs.«105757_j30288109371940_1_alg».proof.Proof.RefKeep
import proofs.«105757_j30288109371940_1_alg».proof.Proof.RefExperts
import proofs.«105757_j30288109371940_1_alg».proof.Proof.Dispatch
import proofs.«105757_j30288109371940_1_alg».proof.Proof.Combine

noncomputable section

namespace Cert.Moe.Bridge

open Idealize.ShloMosaic Idealize.ShloMosaic.StableHlo Idealize.ShloMosaic.TcCoe Idealize.ShloMosaic.ValueIdx Idealize.SL.Sem
open Cert.Moe

/-- The kernel's result buffer after the lines that follow the region equals the reference's, from memories that
    agree on the six argument arrays. -/
theorem result_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Pipeline.afterTail₀ Cert.KernelIdeal.cfgs (Cert.KernelIdeal.Gen.dats m) 0 (Cert.KernelIdeal.Gen.V0 m)
        [Cert.KernelIdeal.Gen.hostOps1, Cert.KernelIdeal.Gen.hostOps1_1, Cert.KernelIdeal.Gen.hostOps1_2] c Cert.KernelIdeal.main_v62
      = after Cert.ReferenceIdeal.Hand.ops (launchContents m' c) (Proc.devRef .tc Cert.ReferenceIdeal.main_v74) := by
  unfold Pipeline.afterTail₀
  rw [Cert.ReferenceIdeal.Hand.after_ops]
  refine Combine.combine_agree _ _ ?_ ?_ ?_ ?_ ?_
  · refine (Pipeline.withArrays_of_ne _ c (Cert.KernelIdeal.Gen.V0 m c) _ Cert.KernelIdeal.main_v0
      (by exact (by decide : ∀ w, Pipeline.arrRef Cert.KernelIdeal.spec0 w ≠ Cert.KernelIdeal.main_v0))).trans ?_
    exact (Dispatch.flat_agree (fun b => m (c, b)) (launchContents m' c) h1.symm).trans (Cert.ReferenceIdeal.Hand.experts_keep_flat _).symm
  · refine (Pipeline.withArrays_of_ne _ c (Cert.KernelIdeal.Gen.V0 m c) _ Cert.KernelIdeal.main_v16
      (by exact (by decide : ∀ w, Pipeline.arrRef Cert.KernelIdeal.spec0 w ≠ Cert.KernelIdeal.main_v16))).trans ?_
    exact (Dispatch.pos_agree (fun b => m (c, b)) (launchContents m' c) h1.symm).trans (Cert.ReferenceIdeal.Hand.experts_keep_pos _).symm
  · refine (Pipeline.withArrays_of_ne _ c (Cert.KernelIdeal.Gen.V0 m c) _ Cert.KernelIdeal.main_v14
      (by exact (by decide : ∀ w, Pipeline.arrRef Cert.KernelIdeal.spec0 w ≠ Cert.KernelIdeal.main_v14))).trans ?_
    exact (Dispatch.valid_agree (fun b => m (c, b)) (launchContents m' c) h1.symm).trans (Cert.ReferenceIdeal.Hand.experts_keep_valid _).symm
  · refine (Pipeline.withArrays_of_ne _ c (Cert.KernelIdeal.Gen.V0 m c) _ Cert.KernelIdeal.main_arg2
      (by exact (by decide : ∀ w, Pipeline.arrRef Cert.KernelIdeal.spec0 w ≠ Cert.KernelIdeal.main_arg2))).trans ?_
    refine (Cert.KernelIdeal.Gen.V_main_arg2 m c).trans ?_
    exact h2.symm.trans ((Cert.ReferenceIdeal.Hand.experts_keep_arg2 _).trans ((Cert.ReferenceIdeal.Hand.scatter_keep_arg2 _).trans (Cert.ReferenceIdeal.Hand.route_keep_arg2 (launchContents m' c)))).symm
  · refine (Pipeline.withArrays_arr Cert.KernelIdeal.spec0 Cert.KernelIdeal.Gen.launch0.win.arr_inj c _ _ 4).trans ?_
    refine (Cert.KernelIdeal.Arr.final4 m c).trans ?_
    funext j
    obtain ⟨e, r, h, rfl⟩ : ∃ (e : Fin 32) (r : Fin 640) (h : Fin 2816), j = ix3 e r h := ⟨j 0, j 1, j 2, eq_ix3 j⟩
    refine Eq.trans ?_ (Cert.ReferenceIdeal.Hand.experts_apply _ e r h).symm
    have eb : (Cert.KernelIdeal.Gen.V m c Cert.KernelIdeal.main_v37 : Cert.KernelIdeal.S32x640x2816.Idx → EReal)
        = after Cert.ReferenceIdeal.Hand.opsScatter (after Cert.ReferenceIdeal.Hand.opsRoute (launchContents m' c)) (Proc.devRef .tc Cert.ReferenceIdeal.main_v36) :=
      Dispatch.buf_agree (fun b => m (c, b)) (launchContents m' c) h0.symm h1.symm
    have eg : (Cert.KernelIdeal.Gen.V m c Cert.KernelIdeal.main_v38 : Cert.KernelIdeal.S32x704x2816.Idx → EReal)
        = after Cert.ReferenceIdeal.Hand.opsScatter (after Cert.ReferenceIdeal.Hand.opsRoute (launchContents m' c)) (Proc.devRef .tc Cert.ReferenceIdeal.main_arg3) :=
      (Dispatch.wg_eq (fun b => m (c, b))).trans (h3.symm.trans ((Cert.ReferenceIdeal.Hand.scatter_keep_arg3 _).trans (Cert.ReferenceIdeal.Hand.route_keep_arg3 (launchContents m' c))).symm)
    have eu : (Cert.KernelIdeal.Gen.V m c Cert.KernelIdeal.main_v39 : Cert.KernelIdeal.S32x704x2816.Idx → EReal)
        = after Cert.ReferenceIdeal.Hand.opsScatter (after Cert.ReferenceIdeal.Hand.opsRoute (launchContents m' c)) (Proc.devRef .tc Cert.ReferenceIdeal.main_arg4) :=
      (Dispatch.wu_eq (fun b => m (c, b))).trans (h4.symm.trans ((Cert.ReferenceIdeal.Hand.scatter_keep_arg4 _).trans (Cert.ReferenceIdeal.Hand.route_keep_arg4 (launchContents m' c))).symm)
    have ed : (Cert.KernelIdeal.Gen.V m c Cert.KernelIdeal.main_v40 : Cert.KernelIdeal.S32x2816x704.Idx → EReal)
        = after Cert.ReferenceIdeal.Hand.opsScatter (after Cert.ReferenceIdeal.Hand.opsRoute (launchContents m' c)) (Proc.devRef .tc Cert.ReferenceIdeal.main_arg5) :=
      (Dispatch.wd_eq (fun b => m (c, b))).trans (h5.symm.trans ((Cert.ReferenceIdeal.Hand.scatter_keep_arg5 _).trans (Cert.ReferenceIdeal.Hand.route_keep_arg5 (launchContents m' c))).symm)
    unfold Cert.KernelIdeal.Arr.G
    rw [eb, eg, eu, ed]

end Cert.Moe.Bridge

end
-- ==== Proof.lean ====
/-
  A mixture-of-experts block: dispatch, grouped expert gated MLP, combine.

  Both programs route every (token, choice) pair to a slot of its expert's buffer (an exclusive running count per
  expert, pairs past the capacity dropped), add the token rows into the per-expert buffers, run each expert's layers
  down(gelu_tanh(gate(x)) · up(x)) on its buffer, gather each pair's row back, weight it by the pair's routing weight
  and sum over the choices. The routing, the scatter and the combine are the same host operations in both programs.
  The expert layers differ in spelling only: the kernel runs them on a grid of (expert, half of the slots), one block
  product x · Wᵀ at a time on bf16-rounded operands with f32 accumulation, and writes the cube of the gate's argument
  as g · (g · g); the reference runs three batched products over all experts at once and writes (g · g) · g. Over the
  extended reals rounding is the identity, a block product into a zero accumulator and a batched product are the same
  finite sums, and multiplication commutes, so the two results are equal entry by entry. No finiteness of the inputs
  is used. The frames of the two kernel programs are the generated ones; the reference's is its run with the result
  dropped; nothing was rewritten by the idealization, so there is nothing to preserve.
-/
import proofs.«105757_j30288109371940_1_alg».proof.Defs
import proofs.«105757_j30288109371940_1_alg».proof.Proof.Gen.Kernel
import proofs.«105757_j30288109371940_1_alg».proof.Proof.Gen.Kernel.Skeleton
import proofs.«105757_j30288109371940_1_alg».proof.Proof.Gen.Kernel.Launch
import proofs.«105757_j30288109371940_1_alg».proof.Proof.Gen.Kernel.Points
import proofs.«105757_j30288109371940_1_alg».proof.Proof.Gen.Kernel.Frame
import proofs.«105757_j30288109371940_1_alg».proof.Proof.Gen.KernelIdeal
import proofs.«105757_j30288109371940_1_alg».proof.Proof.Gen.KernelIdeal.Skeleton
import proofs.«105757_j30288109371940_1_alg».proof.Proof.Gen.KernelIdeal.Launch
import proofs.«105757_j30288109371940_1_alg».proof.Proof.Gen.KernelIdeal.Points
import proofs.«105757_j30288109371940_1_alg».proof.Proof.Gen.KernelIdeal.Frame
import proofs.«105757_j30288109371940_1_alg».proof.Proof.Gen.ReferenceIdeal
import proofs.«105757_j30288109371940_1_alg».proof.Proof.Gen.Pre_finite_inputs
import proofs.«105757_j30288109371940_1_alg».proof.Proof.Bridge
import Idealize.ShloMosaic.Adequacy
import Idealize.ShloMosaic.Init

noncomputable section

namespace Cert.Proof

open Idealize.ShloMosaic Idealize.ShloMosaic.StableHlo Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates and no operation of it writes an argument array. -/
theorem frame_ri : Cert.frame_ReferenceIdeal := fun m ρ _ =>
  (θ_run Cert.ReferenceIdeal.defs _ _).mono (fun _ h c => ⟨(h c Cert.ReferenceIdeal.main_arg0).trans (Cert.ReferenceIdeal.Hand.ops_keep_arg0 _),
    (h c Cert.ReferenceIdeal.main_arg1).trans (Cert.ReferenceIdeal.Hand.ops_keep_arg1 _),
    (h c Cert.ReferenceIdeal.main_arg2).trans (Cert.ReferenceIdeal.Hand.ops_keep_arg2 _),
    (h c Cert.ReferenceIdeal.main_arg3).trans (Cert.ReferenceIdeal.Hand.ops_keep_arg3 _),
    (h c Cert.ReferenceIdeal.main_arg4).trans (Cert.ReferenceIdeal.Hand.ops_keep_arg4 _),
    (h c Cert.ReferenceIdeal.main_arg5).trans (Cert.ReferenceIdeal.Hand.ops_keep_arg5 _)⟩)
    (Cert.ReferenceIdeal.Hand.run_main (F := Ideal) m ρ)

theorem preserves : Cert.preserves_Kernel_KernelIdeal := trivial

/-- Both programs end with the same result: the kernel's program at what its lines after the region compute from
    the region's output array, the reference at the fold of its operations, and the two agree (Bridge). -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
    [Cert.KernelIdeal.Gen.hostOps1, Cert.KernelIdeal.Gen.hostOps1_1, Cert.KernelIdeal.Gen.hostOps1_2] c Cert.KernelIdeal.main_v62, ?_, ?_⟩
  · exact (θ_run Cert.KernelIdeal.defs _ _).mono (fun _ h c =>
      ⟨(h c).2 Cert.KernelIdeal.main_v62 (Pipeline.mem_restRefs_of Cert.KernelIdeal.main_v62 (by decide) (by decide)),
        ((h c).2 Cert.KernelIdeal.main_arg0 (Pipeline.mem_restRefs_of Cert.KernelIdeal.main_arg0 (by decide) (by decide))).trans (Cert.KernelIdeal.Gen.W_main_arg0 m (Cert.KernelIdeal.Gen.dats m) c),
        ((h c).2 Cert.KernelIdeal.main_arg1 (Pipeline.mem_restRefs_of Cert.KernelIdeal.main_arg1 (by decide) (by decide))).trans (Cert.KernelIdeal.Gen.W_main_arg1 m (Cert.KernelIdeal.Gen.dats m) c),
        ((h c).2 Cert.KernelIdeal.main_arg2 (Pipeline.mem_restRefs_of Cert.KernelIdeal.main_arg2 (by decide) (by decide))).trans (Cert.KernelIdeal.Gen.W_main_arg2 m (Cert.KernelIdeal.Gen.dats m) c),
        ((h c).2 Cert.KernelIdeal.main_arg3 (Pipeline.mem_restRefs_of Cert.KernelIdeal.main_arg3 (by decide) (by decide))).trans (Cert.KernelIdeal.Gen.W_main_arg3 m (Cert.KernelIdeal.Gen.dats m) c),
        ((h c).2 Cert.KernelIdeal.main_arg4 (Pipeline.mem_restRefs_of Cert.KernelIdeal.main_arg4 (by decide) (by decide))).trans (Cert.KernelIdeal.Gen.W_main_arg4 m (Cert.KernelIdeal.Gen.dats m) c),
        ((h c).2 Cert.KernelIdeal.main_arg5 (Pipeline.mem_restRefs_of Cert.KernelIdeal.main_arg5 (by decide) (by decide))).trans (Cert.KernelIdeal.Gen.W_main_arg5 m (Cert.KernelIdeal.Gen.dats m) c)⟩)
      (Cert.KernelIdeal.Gen.run_main m ρ)
  · exact (θ_run Cert.ReferenceIdeal.defs _ _).mono (fun _ h c =>
      ⟨(h c Cert.ReferenceIdeal.main_v74).trans (Cert.Moe.Bridge.result_agree m m' c (hagree c).1 (hagree c).2.1 (hagree c).2.2.1
          (hagree c).2.2.2.1 (hagree c).2.2.2.2.1 (hagree c).2.2.2.2.2).symm,
        (h c Cert.ReferenceIdeal.main_arg0).trans (Cert.ReferenceIdeal.Hand.ops_keep_arg0 _),
        (h c Cert.ReferenceIdeal.main_arg1).trans (Cert.ReferenceIdeal.Hand.ops_keep_arg1 _),
        (h c Cert.ReferenceIdeal.main_arg2).trans (Cert.ReferenceIdeal.Hand.ops_keep_arg2 _),
        (h c Cert.ReferenceIdeal.main_arg3).trans (Cert.ReferenceIdeal.Hand.ops_keep_arg3 _),
        (h c Cert.ReferenceIdeal.main_arg4).trans (Cert.ReferenceIdeal.Hand.ops_keep_arg4 _),
        (h c Cert.ReferenceIdeal.main_arg5).trans (Cert.ReferenceIdeal.Hand.ops_keep_arg5 _)⟩)
      (Cert.ReferenceIdeal.Hand.run_main (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
